-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x64 : Shape := ⟨3, ![64, 16384, 64]⟩
abbrev S64x64 : Shape := ⟨2, ![64, 64]⟩
abbrev S64x1 : Shape := ⟨2, ![64, 1]⟩
abbrev S64x3 : Shape := ⟨2, ![64, 3]⟩
abbrev S64x16384 : Shape := ⟨2, ![64, 16384]⟩
abbrev S_ : Shape := ⟨0, ![]⟩

class Facts : Prop where
  bcast_S_S64x16384x64 : S_.BroadcastsInDim S64x16384x64 (![] : Fin 0 → Fin S64x16384x64.rank)
  reducesTo_S64x16384x64_S_d0_1_2 : S64x16384x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S64x3 : S_.BroadcastsInDim S64x3 (![] : Fin 0 → Fin S64x3.rank)
  reducesTo_S64x3_S_d0_1 : S64x3.ReducesTo [0, 1] S_
  bcast_S_S64x16384 : S_.BroadcastsInDim S64x16384 (![] : Fin 0 → Fin S64x16384.rank)
  reducesTo_S64x16384_S_d0_1 : S64x16384.ReducesTo [0, 1] S_

variable [Facts]

def fn_part2 {F : FTy → Type} [FloatOps F] (main_arg7 : FVec F S64x64 .f32) (main_arg8 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg4 : FVec F S64x3 .f32) (main_arg5 : FVec F S64x1 .f32) (main_arg6 : FVec F S64x16384 .f32) (main_arg7 : FVec F S64x64 .f32) (main_arg8 : FVec F S64x64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x3 .f32 := Host.absf main_arg4
  let main_cst_6 : FVec F S_ .f32 := constant S_ .f32 0x7F800000#32
  let main_v20 : FVec F S64x3 .f32 := broadcastInDim S64x3 ![] bcast_S_S64x3 main_cst_6
  let main_v21 : IVec S64x3 1 := cmpf .olt main_v19 main_v20
  let main_c_7 : IVec S_ 1 := constantI S_ 1 1#1
  let main_v22 : IVec S_ 1 := (fun x v => Host.reduce IntOp.andi x v reducesTo_S64x3_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64x16384 .f32 := Host.absf main_arg6
  let main_cst_10 : FVec F S_ .f32 := constant S_ .f32 0x7F800000#32
  let main_v30 : FVec F S64x16384 .f32 := broadcastInDim S64x16384 ![] bcast_S_S64x16384 main_cst_10
  let main_v31 : IVec S64x16384 1 := cmpf .olt main_v29 main_v30
  let main_c_11 : IVec S_ 1 := constantI S_ 1 1#1
  let main_v32 : IVec S_ 1 := (fun x v => Host.reduce IntOp.andi x v reducesTo_S64x16384_S_d0_1 h_S_) main_v31 main_c_11
  let main_v33 : IVec S_ 1 := andi main_v28 main_v32
  fn_part2 (F := F) main_arg7 main_arg8 main_v33

def fn {F : FTy → Type} [FloatOps F] (main_arg0 : FVec F S64x16384x64 .f32) (main_arg1 : FVec F S64x64 .f32) (main_arg2 : FVec F S64x1 .f32) (main_arg3 : FVec F S64x1 .f32) (main_arg4 : FVec F S64x3 .f32) (main_arg5 : FVec F S64x1 .f32) (main_arg6 : FVec F S64x16384 .f32) (main_arg7 : FVec F S64x64 .f32) (main_arg8 : FVec F S64x64 .f32) : IVec S_ 1 :=
  let main_v0 : FVec F S64x16384x64 .f32 := Host.absf main_arg0
  let main_cst : FVec F S_ .f32 := constant S_ .f32 0x7F800000#32
  let main_v1 : FVec F S64x16384x64 .f32 := broadcastInDim S64x16384x64 ![] bcast_S_S64x16384x64 main_cst
  let main_v2 : IVec S64x16384x64 1 := cmpf .olt main_v0 main_v1
  let main_c : IVec S_ 1 := constantI S_ 1 1#1
  let main_v3 : IVec S_ 1 := (fun x v => Host.reduce IntOp.andi x v reducesTo_S64x16384x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_arg8 main_v13 main_v16
-- ==== Kernel.lean ====
abbrev S64x16384x64 : Shape := ⟨3, ![64, 16384, 64]⟩
abbrev S64x64 : Shape := ⟨2, ![64, 64]⟩
abbrev S64x1 : Shape := ⟨2, ![64, 1]⟩
abbrev S64x3 : Shape := ⟨2, ![64, 3]⟩
abbrev S64x16384 : Shape := ⟨2, ![64, 16384]⟩
abbrev S16x2048x64 : Shape := ⟨3, ![16, 2048, 64]⟩
abbrev S16x64 : Shape := ⟨2, ![16, 64]⟩
abbrev S16x2048 : Shape := ⟨2, ![16, 2048]⟩
abbrev S16x1x64 : Shape := ⟨3, ![16, 1, 64]⟩
abbrev S_ : Shape := ⟨0, ![]⟩
abbrev S64 : Shape := ⟨1, ![64]⟩
abbrev S64x16383 : Shape := ⟨2, ![64, 16383]⟩
abbrev S64x0 : Shape := ⟨2, ![64, 0]⟩
abbrev S16x1024x64 : Shape := ⟨3, ![16, 1024, 64]⟩
abbrev S16x1024 : Shape := ⟨2, ![16, 1024]⟩
abbrev S16x1024x1 : Shape := ⟨3, ![16, 1024, 1]⟩

abbrev nBuf : Space → Nat
  | .hbm => 82
  | .vmem => 20
  | .smem => 0
  | _ => 0

abbrev bufTy : (tb : Table) → Fin (tcTables nBuf tb) → BufTy
  | .hbm, ⟨0, _⟩ => ⟨S64x16384x64, .f32⟩
  | .hbm, ⟨1, _⟩ => ⟨S64x64, .f32⟩
  | .hbm, ⟨2, _⟩ => ⟨S64x1, .f32⟩
  | .hbm, ⟨3, _⟩ => ⟨S64x1, .f32⟩
  | .hbm, ⟨4, _⟩ => ⟨S64x3, .f32⟩
  | .hbm, ⟨5, _⟩ => ⟨S64x1, .f32⟩
  | .hbm, ⟨6, _⟩ => ⟨S64x16384, .f32⟩
  | .hbm, ⟨7, _⟩ => ⟨S64x64, .f32⟩
  | .hbm, ⟨8, _⟩ => ⟨S64x64, .f32⟩
  | .hbm, ⟨9, _⟩ => ⟨S64x16384, .f32⟩
  | .hbm, ⟨10, _⟩ => ⟨S64x16384, .f32⟩
  | .hbm, ⟨11, _⟩ => ⟨S64x16384, .f32⟩
  | .hbm, ⟨12, _⟩ => ⟨S64x64, .f32⟩
  | .hbm, ⟨13, _⟩ => ⟨S_, .f32⟩
  | .hbm, ⟨14, _⟩ => ⟨S64, .f32⟩
  | .hbm, ⟨15, _⟩ => ⟨S64x1, .f32⟩
  | .hbm, ⟨16, _⟩ => ⟨S64x1, .f32⟩
  | .hbm, ⟨17, _⟩ => ⟨S64x16384, .f32⟩
  | .hbm, ⟨18, _⟩ => ⟨S64x16384, .f32⟩
  | .hbm, ⟨19, _⟩ => ⟨S_, .f32⟩
  | .hbm, ⟨20, _⟩ => ⟨S64x16384, .f32⟩
  | .hbm, ⟨21, _⟩ => ⟨S64x16384, .f32⟩
  | .hbm, ⟨22, _⟩ => ⟨S64x16384, .f32⟩
  | .hbm, ⟨23, _⟩ => ⟨S64x16384, .f32⟩
  | .hbm, ⟨24, _⟩ => ⟨S64x16384, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64x1, .f32⟩
  | .hbm, ⟨31, _⟩ => ⟨S64x16384, .f32⟩
  | .hbm, ⟨32, _⟩ => ⟨S64x16384, .f32⟩
  | .hbm, ⟨33, _⟩ => ⟨S64x16384, .f32⟩
  | .hbm, ⟨34, _⟩ => ⟨S_, .f32⟩
  | .hbm, ⟨35, _⟩ => ⟨S64, .f32⟩
  | .hbm, ⟨36, _⟩ => ⟨S64x1, .f32⟩
  | .hbm, ⟨37, _⟩ => ⟨S64x16384, .f32⟩
  | .hbm, ⟨38, _⟩ => ⟨S64x16384, .f32⟩
  | .hbm, ⟨39, _⟩ => ⟨S64x16384, .f32⟩
  | .hbm, ⟨40, _⟩ => ⟨S64x16384, .f32⟩
  | .hbm, ⟨41, _⟩ => ⟨S_, .f32⟩
  | .hbm, ⟨42, _⟩ => ⟨S64x1, .f32⟩
  | .hbm, ⟨43, _⟩ => ⟨S64x1, .f32⟩
  | .hbm, ⟨44, _⟩ => ⟨S64x16384, .f32⟩
  | .hbm, ⟨45, _⟩ => ⟨S64x16384, .f32⟩
  | .hbm, ⟨46, _⟩ => ⟨S64x16384, .f32⟩
  | .hbm, ⟨47, _⟩ => ⟨S64x1, .f32⟩
  | .hbm, ⟨48, _⟩ => ⟨S64x1, .f32⟩
  | .hbm, ⟨49, _⟩ => ⟨S64x16383, .f32⟩
  | .hbm, ⟨50, _⟩ => ⟨S64x16384, .f32⟩
  | .hbm, ⟨51, _⟩ => ⟨S64x16384, .f32⟩
  | .hbm, ⟨52, _⟩ => ⟨S64x16384, .f32⟩
  | .hbm, ⟨53, _⟩ => ⟨S_, .f32⟩
  | .hbm, ⟨54, _⟩ => ⟨S64x16384, .f32⟩
  | .hbm, ⟨55, _⟩ => ⟨S64x16384, .f32⟩
  | .hbm, ⟨56, _⟩ => ⟨S64x1, .f32⟩
  | .hbm, ⟨57, _⟩ => ⟨S64x16384, .f32⟩
  | .hbm, ⟨58, _⟩ => ⟨S64x0, .f32⟩
  | .hbm, ⟨59, _⟩ => ⟨S64x16384, .f32⟩
  | .hbm, ⟨60, _⟩ => ⟨S64x16384, .f32⟩
  | .hbm, ⟨61, _⟩ => ⟨S64x16384, .f32⟩
  | .hbm, ⟨62, _⟩ => ⟨S64x16384, .f32⟩
  | .hbm, ⟨63, _⟩ => ⟨S64x1, .f32⟩
  | .hbm, ⟨64, _⟩ => ⟨S64x16383, .f32⟩
  | .hbm, ⟨65, _⟩ => ⟨S64x1, .f32⟩
  | .hbm, ⟨66, _⟩ => ⟨S64x16384, .f32⟩
  | .hbm, ⟨67, _⟩ => ⟨S64x16384, .f32⟩
  | .hbm, ⟨68, _⟩ => ⟨S64x16384, .f32⟩
  | .hbm, ⟨69, _⟩ => ⟨S64x16384, .f32⟩
  | .hbm, ⟨70, _⟩ => ⟨S64x16384, .f32⟩
  | .hbm, ⟨71, _⟩ => ⟨S64x16384, .f32⟩
  | .hbm, ⟨72, _⟩ => ⟨S_, .f32⟩
  | .hbm, ⟨73, _⟩ => ⟨S64, .f32⟩
  | .hbm, ⟨74, _⟩ => ⟨S64x1, .f32⟩
  | .hbm, ⟨75, _⟩ => ⟨S_, .f32⟩
  | .hbm, ⟨76, _⟩ => ⟨S64x1, .f32⟩
  | .hbm, ⟨77, _⟩ => ⟨S64x1, .f32⟩
  | .hbm, ⟨78, _⟩ => ⟨S64x16384, .f32⟩
  | .hbm, ⟨79, _⟩ => ⟨S64x16384, .f32⟩
  | .hbm, ⟨80, _⟩ => ⟨S64x64, .f32⟩
  | .hbm, ⟨81, _⟩ => ⟨S64x16384x64, .f32⟩
  | .local _ .vmem, ⟨0, _⟩ => ⟨S16x2048x64, .f32⟩
  | .local _ .vmem, ⟨1, _⟩ => ⟨S16x2048x64, .f32⟩
  | .local _ .vmem, ⟨2, _⟩ => ⟨S16x64, .f32⟩
  | .local _ .vmem, ⟨3, _⟩ => ⟨S16x64, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x1024x64, .f32⟩
  | .local _ .vmem, ⟨9, _⟩ => ⟨S16x1024x64, .f32⟩
  | .local _ .vmem, ⟨10, _⟩ => ⟨S16x1024, .f32⟩
  | .local _ .vmem, ⟨11, _⟩ => ⟨S16x1024, .f32⟩
  | .local _ .vmem, ⟨12, _⟩ => ⟨S16x64, .f32⟩
  | .local _ .vmem, ⟨13, _⟩ => ⟨S16x64, .f32⟩
  | .local _ .vmem, ⟨14, _⟩ => ⟨S16x64, .f32⟩
  | .local _ .vmem, ⟨15, _⟩ => ⟨S16x64, .f32⟩
  | .local _ .vmem, ⟨16, _⟩ => ⟨S16x64, .f32⟩
  | .local _ .vmem, ⟨17, _⟩ => ⟨S16x64, .f32⟩
  | .local _ .vmem, ⟨18, _⟩ => ⟨S16x1024x64, .f32⟩
  | .local _ .vmem, ⟨19, _⟩ => ⟨S16x1024x64, .f32⟩
  | _, _ => ⟨S64x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call2_v0 : Ref sig .tc := ⟨.hbm, 64, rfl⟩
abbrev main_call2_v1 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55_0 : Ref sig .tc := ⟨.hbm, 80, rfl⟩
abbrev main_v55_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S16x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S16x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S16x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S16x2048x64_S16x2048x64_0_0_0 : ∀ a, (![0, 0, 0] : Fin 3 → Nat) a + S16x2048x64.size a ≤ S16x2048x64.size a
  h_S16x2048x64 : 0 < S16x2048x64.numel
  inb_S16x64_S16x64_0_0 : ∀ a, (![0, 0] : Fin 2 → Nat) a + S16x64.size a ≤ S16x64.size a
  h_S16x64 : 0 < S16x64.numel
  shapeCasts_S16x64_S16x1x64 : S16x64.ShapeCasts S16x1x64
  broadcasts_S16x1x64_S16x2048x64 : S16x1x64.Broadcasts S16x2048x64
  reduces_S16x2048x64_S16x2048 : S16x2048x64.Reduces [2] S16x2048
  inb_S16x2048_S16x2048_0_0 : ∀ a, (![0, 0] : Fin 2 → Nat) a + S16x2048.size a ≤ S16x2048.size a
  h_S16x2048 : 0 < S16x2048.numel
  reducesTo_S64x64_S64_d1 : S64x64.ReducesTo [1] S64
  h_S_ : 0 < S_.numel
  bcast_S64_S64x1_0 : S64.BroadcastsInDim S64x1 (![0] : Fin 1 → Fin S64x1.rank)
  bcast_S64x1_S64x16384_0_1 : S64x1.BroadcastsInDim S64x16384 (![0, 1] : Fin 2 → Fin S64x16384.rank)
  bcast_S_S64x16384 : S_.BroadcastsInDim S64x16384 (![] : Fin 0 → Fin S64x16384.rank)
  reducesTo_S64x16384_S64_d1 : S64x16384.ReducesTo [1] S64
  bcast_S_S64 : S_.BroadcastsInDim S64 (![] : Fin 0 → Fin S64.rank)
  bcast_S_S64x1 : S_.BroadcastsInDim S64x1 (![] : Fin 0 → Fin S64x1.rank)
  slices_S64x3_S64x1_0_0 : S64x3.Slices ![0, 0] S64x1
  slices_S64x16384_S64x1_0_16383 : S64x16384.Slices ![0, 16383] S64x1
  slices_S64x16384_S64x16383_0_0 : S64x16384.Slices ![0, 0] S64x16383
  concatenates_S64x1_S64x16383_S64x16384_d1 : Shape.Concatenates [S64x1, S64x16383] S64x16384 1
  slices_S64x3_S64x1_0_1 : S64x3.Slices ![0, 1] S64x1
  slices_S64x16384_S64x16384_0_0 : S64x16384.Slices ![0, 0] S64x16384
  slices_S64x16384_S64x0_0_0 : S64x16384.Slices ![0, 0] S64x0
  concatenates_S64x16384_S64x0_S64x16384_d1 : Shape.Concatenates [S64x16384, S64x0] S64x16384 1
  slices_S64x3_S64x1_0_2 : S64x3.Slices ![0, 2] S64x1
  slices_S64x16384_S64x16383_0_1 : S64x16384.Slices ![0, 1] S64x16383
  slices_S64x16384_S64x1_0_0 : S64x16384.Slices ![0, 0] S64x1
  concatenates_S64x16383_S64x1_S64x16384_d1 : Shape.Concatenates [S64x16383, S64x1] S64x16384 1
  inb_S16x1024x64_S16x1024x64_0_0_0 : ∀ a, (![0, 0, 0] : Fin 3 → Nat) a + S16x1024x64.size a ≤ S16x1024x64.size a
  h_S16x1024x64 : 0 < S16x1024x64.numel
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S16x1024_S16x1024x1 : S16x1024.ShapeCasts S16x1024x1
  broadcasts_S16x1024x1_S16x1024x64 : S16x1024x1.Broadcasts S16x1024x64
  broadcasts_S16x1x64_S16x1024x64 : S16x1x64.Broadcasts S16x1024x64
  shapeCasts_S16x64_S16x64 : S16x64.ShapeCasts S16x64
  reduces_S16x1024x64_S16x64 : S16x1024x64.Reduces [1] S16x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048x64.size a ≤ S64x16384x64.size a
  hwx0_0 : ∀ i : grid0.Coords, EltTy.bits .f32 = 32 ∨ (Rect.block (s := S64x16384x64) S16x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S64x64.size a
  hwx0_1 : ∀ i : grid0.Coords, EltTy.bits .f32 = 32 ∨ (Rect.block (s := S64x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S64x16384.size a
  hwx0_2 : ∀ i : grid0.Coords, EltTy.bits .f32 = 32 ∨ (Rect.block (s := S64x16384) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S64x16384.size a
  hwx0_3 : ∀ i : grid0.Coords, EltTy.bits .f32 = 32 ∨ (Rect.block (s := S64x16384) S16x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1024x64.size a ≤ S64x16384x64.size a
  hwx1_0 : ∀ i : grid1.Coords, EltTy.bits .f32 = 32 ∨ (Rect.block (s := S64x16384x64) S16x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1024.size a ≤ S64x16384.size a
  hwx1_1 : ∀ i : grid1.Coords, EltTy.bits .f32 = 32 ∨ (Rect.block (s := S64x16384) S16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S64x64.size a
  hwx1_2 : ∀ i : grid1.Coords, EltTy.bits .f32 = 32 ∨ (Rect.block (s := S64x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S64x64.size a
  hwx1_3 : ∀ i : grid1.Coords, EltTy.bits .f32 = 32 ∨ (Rect.block (s := S64x64) S16x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S64x64.size a
  hwx1_4 : ∀ i : grid1.Coords, EltTy.bits .f32 = 32 ∨ (Rect.block (s := S64x64) S16x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x1024x64.size a ≤ S64x16384x64.size a
  hwx1_5 : ∀ i : grid1.Coords, EltTy.bits .f32 = 32 ∨ (Rect.block (s := S64x16384x64) S16x1024x64.size (cc1_transform_5 i) (hinb1_5 i)).WholeWords (EltTy.packing .f32)

variable [Facts₀]

abbrev win0_0 : Pipeline.Window sig grid0 :=
  Pipeline.Window.ofSpec (Memref.whole main_arg0) S16x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S16x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S16x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v55_0) S16x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v55_1) S16x1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x16384x64 : Shape := ⟨3, ![64, 16384, 64]⟩
abbrev S64x64 : Shape := ⟨2, ![64, 64]⟩
abbrev S64x1 : Shape := ⟨2, ![64, 1]⟩
abbrev S64x3 : Shape := ⟨2, ![64, 3]⟩
abbrev S64x16384 : Shape := ⟨2, ![64, 16384]⟩
abbrev S64x1x64 : Shape := ⟨3, ![64, 1, 64]⟩
abbrev S_ : Shape := ⟨0, ![]⟩
abbrev S64 : Shape := ⟨1, ![64]⟩
abbrev S64x16383 : Shape := ⟨2, ![64, 16383]⟩
abbrev S64x0 : Shape := ⟨2, ![64, 0]⟩
abbrev S64x1x16384 : Shape := ⟨3, ![64, 1, 16384]⟩
abbrev S64x16384x1 : Shape := ⟨3, ![64, 16384, 1]⟩

abbrev nBuf : Space → Nat
  | .hbm => 103
  | .vmem => 0
  | .smem => 0
  | _ => 0

abbrev bufTy : (tb : Table) → Fin (tcTables nBuf tb) → BufTy
  | .hbm, ⟨0, _⟩ => ⟨S64x16384x64, .f32⟩
  | .hbm, ⟨1, _⟩ => ⟨S64x64, .f32⟩
  | .hbm, ⟨2, _⟩ => ⟨S64x1, .f32⟩
  | .hbm, ⟨3, _⟩ => ⟨S64x1, .f32⟩
  | .hbm, ⟨4, _⟩ => ⟨S64x3, .f32⟩
  | .hbm, ⟨5, _⟩ => ⟨S64x1, .f32⟩
  | .hbm, ⟨6, _⟩ => ⟨S64x16384, .f32⟩
  | .hbm, ⟨7, _⟩ => ⟨S64x64, .f32⟩
  | .hbm, ⟨8, _⟩ => ⟨S64x64, .f32⟩
  | .hbm, ⟨9, _⟩ => ⟨S64x1x64, .f32⟩
  | .hbm, ⟨10, _⟩ => ⟨S64x16384x64, .f32⟩
  | .hbm, ⟨11, _⟩ => ⟨S64x16384x64, .f32⟩
  | .hbm, ⟨12, _⟩ => ⟨S_, .f32⟩
  | .hbm, ⟨13, _⟩ => ⟨S64x16384, .f32⟩
  | .hbm, ⟨14, _⟩ => ⟨S64x16384x64, .f32⟩
  | .hbm, ⟨15, _⟩ => ⟨S_, .f32⟩
  | .hbm, ⟨16, _⟩ => ⟨S64x16384, .f32⟩
  | .hbm, ⟨17, _⟩ => ⟨S64x16384, .f32⟩
  | .hbm, ⟨18, _⟩ => ⟨S64x1x64, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x16384, .f32⟩
  | .hbm, ⟨23, _⟩ => ⟨S64x16384, .f32⟩
  | .hbm, ⟨24, _⟩ => ⟨S_, .f32⟩
  | .hbm, ⟨25, _⟩ => ⟨S64x16384, .f32⟩
  | .hbm, ⟨26, _⟩ => ⟨S64x16384, .f32⟩
  | .hbm, ⟨27, _⟩ => ⟨S64x16384, .f32⟩
  | .hbm, ⟨28, _⟩ => ⟨S64x16384, .f32⟩
  | .hbm, ⟨29, _⟩ => ⟨S64x16384, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x16384, .f32⟩
  | .hbm, ⟨37, _⟩ => ⟨S64x16384, .f32⟩
  | .hbm, ⟨38, _⟩ => ⟨S64x16384, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S64x16384, .f32⟩
  | .hbm, ⟨43, _⟩ => ⟨S64x16384, .f32⟩
  | .hbm, ⟨44, _⟩ => ⟨S64x16384, .f32⟩
  | .hbm, ⟨45, _⟩ => ⟨S64x16384, .f32⟩
  | .hbm, ⟨46, _⟩ => ⟨S_, .f32⟩
  | .hbm, ⟨47, _⟩ => ⟨S64x1, .f32⟩
  | .hbm, ⟨48, _⟩ => ⟨S64x1, .f32⟩
  | .hbm, ⟨49, _⟩ => ⟨S64x16384, .f32⟩
  | .hbm, ⟨50, _⟩ => ⟨S64x16384, .f32⟩
  | .hbm, ⟨51, _⟩ => ⟨S64x16384, .f32⟩
  | .hbm, ⟨52, _⟩ => ⟨S64x1, .f32⟩
  | .hbm, ⟨53, _⟩ => ⟨S64x1, .f32⟩
  | .hbm, ⟨54, _⟩ => ⟨S64x16383, .f32⟩
  | .hbm, ⟨55, _⟩ => ⟨S64x16384, .f32⟩
  | .hbm, ⟨56, _⟩ => ⟨S64x16384, .f32⟩
  | .hbm, ⟨57, _⟩ => ⟨S64x16384, .f32⟩
  | .hbm, ⟨58, _⟩ => ⟨S_, .f32⟩
  | .hbm, ⟨59, _⟩ => ⟨S64x16384, .f32⟩
  | .hbm, ⟨60, _⟩ => ⟨S64x16384, .f32⟩
  | .hbm, ⟨61, _⟩ => ⟨S64x1, .f32⟩
  | .hbm, ⟨62, _⟩ => ⟨S64x16384, .f32⟩
  | .hbm, ⟨63, _⟩ => ⟨S64x0, .f32⟩
  | .hbm, ⟨64, _⟩ => ⟨S64x16384, .f32⟩
  | .hbm, ⟨65, _⟩ => ⟨S64x16384, .f32⟩
  | .hbm, ⟨66, _⟩ => ⟨S64x16384, .f32⟩
  | .hbm, ⟨67, _⟩ => ⟨S64x16384, .f32⟩
  | .hbm, ⟨68, _⟩ => ⟨S64x1, .f32⟩
  | .hbm, ⟨69, _⟩ => ⟨S64x16383, .f32⟩
  | .hbm, ⟨70, _⟩ => ⟨S64x1, .f32⟩
  | .hbm, ⟨71, _⟩ => ⟨S64x16384, .f32⟩
  | .hbm, ⟨72, _⟩ => ⟨S64x16384, .f32⟩
  | .hbm, ⟨73, _⟩ => ⟨S64x16384, .f32⟩
  | .hbm, ⟨74, _⟩ => ⟨S64x16384, .f32⟩
  | .hbm, ⟨75, _⟩ => ⟨S64x16384, .f32⟩
  | .hbm, ⟨76, _⟩ => ⟨S64x16384, .f32⟩
  | .hbm, ⟨77, _⟩ => ⟨S_, .f32⟩
  | .hbm, ⟨78, _⟩ => ⟨S64, .f32⟩
  | .hbm, ⟨79, _⟩ => ⟨S64x1, .f32⟩
  | .hbm, ⟨80, _⟩ => ⟨S_, .f32⟩
  | .hbm, ⟨81, _⟩ => ⟨S64x1, .f32⟩
  | .hbm, ⟨82, _⟩ => ⟨S64x1, .f32⟩
  | .hbm, ⟨83, _⟩ => ⟨S64x16384, .f32⟩
  | .hbm, ⟨84, _⟩ => ⟨S64x16384, .f32⟩
  | .hbm, ⟨85, _⟩ => ⟨S64x1x16384, .f32⟩
  | .hbm, ⟨86, _⟩ => ⟨S64x1x64, .f32⟩
  | .hbm, ⟨87, _⟩ => ⟨S64x64, .f32⟩
  | .hbm, ⟨88, _⟩ => ⟨S64x16384x1, .f32⟩
  | .hbm, ⟨89, _⟩ => ⟨S64x1x64, .f32⟩
  | .hbm, ⟨90, _⟩ => ⟨S64x16384x64, .f32⟩
  | .hbm, ⟨91, _⟩ => ⟨S64x16384x64, .f32⟩
  | .hbm, ⟨92, _⟩ => ⟨S64x16384x64, .f32⟩
  | .hbm, ⟨93, _⟩ => ⟨S64x16384x1, .f32⟩
  | .hbm, ⟨94, _⟩ => ⟨S64x1x64, .f32⟩
  | .hbm, ⟨95, _⟩ => ⟨S64x16384x64, .f32⟩
  | .hbm, ⟨96, _⟩ => ⟨S64x16384x64, .f32⟩
  | .hbm, ⟨97, _⟩ => ⟨S64x16384x64, .f32⟩
  | .hbm, ⟨98, _⟩ => ⟨S_, .f32⟩
  | .hbm, ⟨99, _⟩ => ⟨S64x16384x64, .f32⟩
  | .hbm, ⟨100, _⟩ => ⟨S64x16384x64, .f32⟩
  | .hbm, ⟨101, _⟩ => ⟨S64x16384x64, .f32⟩
  | .hbm, ⟨102, _⟩ => ⟨S64x16384x64, .f32⟩
  | _, _ => ⟨S64x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v4 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call2_v0 : Ref sig .tc := ⟨.hbm, 53, rfl⟩
abbrev main_call2_v1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call3_v0 : Ref sig .tc := ⟨.hbm, 62, rfl⟩
abbrev main_call3_v1 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call4_v0 : Ref sig .tc := ⟨.hbm, 69, rfl⟩
abbrev main_call4_v1 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_8 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]

class Facts₀ : Prop where
  bcast_S64x64_S64x1x64_0_2 : S64x64.BroadcastsInDim S64x1x64 (![0, 2] : Fin 2 → Fin S64x1x64.rank)
  bcast_S64x1x64_S64x16384x64_0_1_2 : S64x1x64.BroadcastsInDim S64x16384x64 (![0, 1, 2] : Fin 3 → Fin S64x16384x64.rank)
  reducesTo_S64x16384x64_S64x16384_d2 : S64x16384x64.ReducesTo [2] S64x16384
  h_S_ : 0 < S_.numel
  reducesTo_S64x1x64_S64x1_d2 : S64x1x64.ReducesTo [2] S64x1
  bcast_S64x1_S64x16384_0_1 : S64x1.BroadcastsInDim S64x16384 (![0, 1] : Fin 2 → Fin S64x16384.rank)
  bcast_S_S64x16384 : S_.BroadcastsInDim S64x16384 (![] : Fin 0 → Fin S64x16384.rank)
  reducesTo_S64x16384_S64_d1 : S64x16384.ReducesTo [1] S64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  slices_S64x3_S64x1_0_0 : S64x3.Slices ![0, 0] S64x1
  slices_S64x16384_S64x1_0_16383 : S64x16384.Slices ![0, 16383] S64x1
  slices_S64x16384_S64x16383_0_0 : S64x16384.Slices ![0, 0] S64x16383
  concatenates_S64x1_S64x16383_S64x16384_d1 : Shape.Concatenates [S64x1, S64x16383] S64x16384 1
  slices_S64x3_S64x1_0_1 : S64x3.Slices ![0, 1] S64x1
  slices_S64x16384_S64x16384_0_0 : S64x16384.Slices ![0, 0] S64x16384
  slices_S64x16384_S64x0_0_0 : S64x16384.Slices ![0, 0] S64x0
  concatenates_S64x16384_S64x0_S64x16384_d1 : Shape.Concatenates [S64x16384, S64x0] S64x16384 1
  slices_S64x3_S64x1_0_2 : S64x3.Slices ![0, 2] S64x1
  slices_S64x16384_S64x16383_0_1 : S64x16384.Slices ![0, 1] S64x16383
  slices_S64x16384_S64x1_0_0 : S64x16384.Slices ![0, 0] S64x1
  concatenates_S64x16383_S64x1_S64x16384_d1 : Shape.Concatenates [S64x16383, S64x1] S64x16384 1
  bcast_S64x16384_S64x1x16384_0_2 : S64x16384.BroadcastsInDim S64x1x16384 (![0, 2] : Fin 2 → Fin S64x1x16384.rank)
  shapeCasts_S64x1x64_S64x64 : S64x1x64.ShapeCasts S64x64
  bcast_S64x16384_S64x16384x1_0_1 : S64x16384.BroadcastsInDim S64x16384x1 (![0, 1] : Fin 2 → Fin S64x16384x1.rank)
  bcast_S64x16384x1_S64x16384x64_0_1_2 : S64x16384x1.BroadcastsInDim S64x16384x64 (![0, 1, 2] : Fin 3 → Fin S64x16384x64.rank)
  bcast_S_S64x16384x64 : S_.BroadcastsInDim S64x16384x64 (![] : Fin 0 → Fin S64x16384x64.rank)
  dot_S64x1x16384_S64x16384x64_S64x1x64_2_1_1_2_0_0_wf : DotDims.WF S64x1x16384 S64x16384x64 S64x1x64 [2] [1] [1] [2] [0] [0]

variable [Facts₀]

def dot_S64x1x16384_S64x16384x64_S64x1x64_2_1_1_2_0_0 : DotDims S64x1x16384 S64x16384x64 S64x1x64 where
  lhsContracting := [2]
  rhsContracting := [1]
  lhsNonContracting := [1]
  rhsNonContracting := [2]
  lhsBatch := [0]
  rhsBatch := [0]
  wf := dot_S64x1x16384_S64x16384x64_S64x1x64_2_1_1_2_0_0_wf

class Facts : Prop extends Facts₀ where

variable [Facts]
-- ==== Proof.KernelRun.lean ====
/-
  The idealized kernel's run, with its three results read.

  @main is nine segments: the first pipelined region (two row reductions of the memory), seven stretches of host
  operations (the addressing weights), the second pipelined region (the read vector and the new memory). The buffer
  contents at the segment boundaries are a fold from the launch memory; after the last segment every unscoped buffer
  holds the last boundary's contents. Here the three result buffers are read at those contents, beside the argument
  arrays, which end as launched.
-/
import proofs.«145907_j54546084660145_2_alg».proof.Defs
import proofs.«145907_j54546084660145_2_alg».proof.Proof.Gen.KernelIdeal.Frame

set_option maxRecDepth 16384

noncomputable section

namespace Cert.KernelIdeal.RunRead

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the read vector, the new memory and the
    weights at the last boundary's contents and the nine argument arrays as launched. -/
theorem run_read : θ_run defs (onTc (τ := τ) (main (F := F))) ⟨m, fun _ => 0, ρ⟩ (fun r => ∀ c : Dev nD,
      r.2.mem ((c.tc : Thread nD τ).loc main_v55_0) = W9 m ρ c (Proc.devRef .tc main_v55_0)
      ∧ r.2.mem ((c.tc : Thread nD τ).loc main_v55_1) = W9 m ρ c (Proc.devRef .tc main_v55_1)
      ∧ r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v55_0 (by decide)),
       h c _ (mem_uc main_v55_1 (by decide)),
       h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunRead

end
-- ==== Proof.LibFlatten.lean ====
/-
  Rank-3 layout facts read at one index, for any extents and any entries.

  Folding the two leading axes of an [a, b, c] array into one axis of a·b rows (and unfolding it again) keeps every entry:
  row p·b + q of the folded array is the pair (p, q). The three rotations of a rank-3 array's axes that are not already
  in the library move the entry at (p, q, r) to (q, r, p), to (q, p, r) and to (r, p, q). A trailing unit axis added to a
  matrix, and a trailing unit axis spread over c entries, read the matrix entry. A sum over the last of three axes
  reads, at (p, q), the sum of the c entries (p, q, ·).
-/
import Idealize.ShloMosaic.Lib.Pipeline.Value
import Idealize.ShloMosaic.Lib.ValueIdx
import Idealize.ShloMosaic.PureOps.Ideal.Laws

open scoped BigOperators

namespace Cert.LibFlatten

open Idealize.ShloMosaic Idealize.ShloMosaic.ValueIdx

variable {α : Type}

/-- An `[a, b, c]` array with its two leading axes folded into `n` rows reads, at row `j = p·b + q` and column `r`,
    the operand at `(p, q, r)`. -/
theorem fold_abc_apply {a b c n : ℕ} (x : (⟨3, ![a, b, c]⟩ : Shape).Idx → α)
    (h : (⟨3, ![a, b, c]⟩ : Shape).ShapeCasts ⟨2, ![n, c]⟩) (p : Fin a) (q : Fin b) (r : Fin c) (j : Fin n)
    (hj : j.val = p.val * b + q.val) : shapeCast ⟨2, ![n, c]⟩ x h (ix2 j r) = x (ix3 p q r) :=
  shapeCast_apply x h _ _ (by
    rw [Shape.rowMajor_val_three, Shape.rowMajor_val_two]
    show (p.val * b + q.val) * c + r.val = j.val * c + r.val
    rw [hj])

/-- An `[n, c]` array with its rows unfolded into `[a, b]` reads, at `(p, q, r)`, the operand at row `j = p·b + q`. -/
theorem unfold_abc_apply {a b c n : ℕ} (x : (⟨2, ![n, c]⟩ : Shape).Idx → α)
    (h : (⟨2, ![n, c]⟩ : Shape).ShapeCasts ⟨3, ![a, b, c]⟩) (p : Fin a) (q : Fin b) (r : Fin c) (j : Fin n)
    (hj : j.val = p.val * b + q.val) : shapeCast ⟨3, ![a, b, c]⟩ x h (ix3 p q r) = x (ix2 j r) :=
  shapeCast_apply x h _ _ (by
    rw [Shape.rowMajor_val_three, Shape.rowMajor_val_two]
    show j.val * c + r.val = (p.val * b + q.val) * c + r.val
    rw [hj])

/-- The rotation `[1, 2, 0]` of an `[a, b, c]` array reads, at `(q, r, p)`, the operand at `(p, q, r)`. -/
theorem rot120_apply {a b c : ℕ} (x : (⟨3, ![a, b, c]⟩ : Shape).Idx → α)
    (h : (⟨3, ![a, b, c]⟩ : Shape).Transposes [1, 2, 0] ⟨3, ![b, c, a]⟩) (p : Fin a) (q : Fin b) (r : Fin c) :
    transpose ⟨3, ![b, c, a]⟩ [1, 2, 0] x h (ix3 q r p) = x (ix3 p q r) :=
  transpose_apply _ x h _ _ fun d => match d with | ⟨0, _⟩ => rfl | ⟨1, _⟩ => rfl | ⟨2, _⟩ => rfl

/-- The swap `[1, 0, 2]` of the two leading axes of an `[a, b, c]` array reads, at `(q, p, r)`, the operand at `(p, q, r)`. -/
theorem swap102_apply {a b c : ℕ} (x : (⟨3, ![a, b, c]⟩ : Shape).Idx → α)
    (h : (⟨3, ![a, b, c]⟩ : Shape).Transposes [1, 0, 2] ⟨3, ![b, a, c]⟩) (p : Fin a) (q : Fin b) (r : Fin c) :
    transpose ⟨3, ![b, a, c]⟩ [1, 0, 2] x h (ix3 q p r) = x (ix3 p q r) :=
  transpose_apply _ x h _ _ fun d => match d with | ⟨0, _⟩ => rfl | ⟨1, _⟩ => rfl | ⟨2, _⟩ => rfl

/-- The rotation `[2, 0, 1]` of an `[a, b, c]` array reads, at `(r, p, q)`, the operand at `(p, q, r)`. -/
theorem rot201_apply {a b c : ℕ} (x : (⟨3, ![a, b, c]⟩ : Shape).Idx → α)
    (h : (⟨3, ![a, b, c]⟩ : Shape).Transposes [2, 0, 1] ⟨3, ![c, a, b]⟩) (p : Fin a) (q : Fin b) (r : Fin c) :
    transpose ⟨3, ![c, a, b]⟩ [2, 0, 1] x h (ix3 r p q) = x (ix3 p q r) :=
  transpose_apply _ x h _ _ fun d => match d with | ⟨0, _⟩ => rfl | ⟨1, _⟩ => rfl | ⟨2, _⟩ => rfl

/-- An `[a, b]` array given a trailing unit axis reads, at `(p, q, u)`, the operand at `(p, q)`. -/
theorem cast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array spread over `c` entries of its last axis reads, at `(p, q, r)`, the operand at `(p, q, 0)`. -/
theorem spread_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A sum over the last of three axes: the `add` reduction of an `[a, b, c]` array over axis 2 reads, at `(p, q)`, the
    sum of the `c` entries `(p, q, ·)` (the accumulator is the sum's neutral element, so it contributes nothing). -/
theorem sumLast3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  show ∑ k : Fin c, src (h.lift (ix2 p q) k) = _
  refine Finset.sum_congr rfl fun k _ => congrArg src ?_
  funext d; apply Fin.ext
  match d with
  | ⟨0, _⟩ => rfl
  | ⟨1, _⟩ => rfl
  | ⟨2, _⟩ => rfl

end Cert.LibFlatten
-- ==== Proof.LibRank3Unit.lean ====
/-
  Unit axes inside small arrays, read at one index, for any extents and any entries.

  A matrix [a, c] given a unit middle axis is the same entries as [a, 1, c]; spreading that unit axis over b copies puts
  the entry (p, r) at every (p, q, r). A rank-3 array with a unit leading axis spread over a copies puts (q, r) at every
  (p, q, r). A vector [c] viewed as [1, 1, c] and spread over [a, b, c] puts its entry r at every (p, q, r). A column
  [a, 1] viewed as the vector [a] keeps its entries.
-/
import Idealize.ShloMosaic.Lib.Pipeline.Value
import Idealize.ShloMosaic.Lib.ValueIdx

namespace Cert.LibRank3Unit

open Idealize.ShloMosaic Idealize.ShloMosaic.ValueIdx

variable {α : Type}

/-- An `[a, c]` matrix given a unit middle axis reads, at `(p, u, r)`, the operand at `(p, r)`. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, 1, c]` array spread over `b` entries of its middle axis reads, at `(p, q, r)`, the operand at `(p, 0, r)`. -/
theorem spread_a1c_abc {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array spread over `a` leading entries reads, at `(p, q, r)`, the operand at `(0, q, r)`. -/
theorem spread_1bc_abc {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[c]` vector viewed as `[1, 1, c]` reads, at `(u, u', r)`, the operand at `r`. -/
theorem cast_c_11c {c : ℕ} (x : (⟨1, ![c]⟩ : Shape).Idx → α)
    (h : (⟨1, ![c]⟩ : Shape).ShapeCasts ⟨3, ![1, 1, c]⟩) (u u' : Fin 1) (r : Fin c) :
    shapeCast ⟨3, ![1, 1, c]⟩ x h (ix3 u u' r) = x (ix1 r) :=
  shapeCast_apply x h _ _ (by
    have hu : u.val = 0 := by omega
    have hu' : u'.val = 0 := by omega
    rw [Shape.rowMajor_val_one, Shape.rowMajor_val_three]
    show r.val = (u.val * 1 + u'.val) * c + r.val
    rw [hu, hu']
    simp)

/-- A `[1, 1, c]` array spread over `[a, b, c]` reads, at `(p, q, r)`, the operand at `(0, 0, r)`. -/
theorem spread_11c_abc {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An `[a, 1]` column viewed as the vector `[a]` reads, at `p`, the operand at `(p, u)`. -/
theorem cast_a1_a {a : ℕ} (x : (⟨2, ![a, 1]⟩ : Shape).Idx → α)
    (h : (⟨2, ![a, 1]⟩ : Shape).ShapeCasts ⟨1, ![a]⟩) (p : Fin a) (u : Fin 1) :
    shapeCast ⟨1, ![a]⟩ x h (ix1 p) = x (ix2 p u) :=
  shapeCast_apply x h _ _ (by
    have hu : u.val = 0 := by omega
    rw [Shape.rowMajor_val_two, Shape.rowMajor_val_one]
    show p.val * 1 + u.val = p.val
    rw [hu, Nat.mul_one, Nat.add_zero])

end Cert.LibRank3Unit
-- ==== Proof.LibSumMid3.lean ====
/-
  A sum over the MIDDLE of three axes read at one index, over the extended reals: summing an [a, b, c] array along its
  second coordinate gives, at (p, r), the sum of the b entries (p, ·, r) — for any extents and any float format. The
  inserted index that the library's one-axis reduction law speaks of is, at literal rank three, the triple (p, k, r).
-/
import Idealize.ShloMosaic.Lib.ValueIdx
import Idealize.ShloMosaic.PureOps.Ideal.Laws

open scoped BigOperators

namespace Cert.LibSumMid3

open Idealize.ShloMosaic Idealize.ShloMosaic.ValueIdx

/-- The `add` reduction of an `[a, b, c]` array over axis 1 reads, at `(p, r)`, the sum of the `b` entries
    `(p, ·, r)` (the accumulator is the sum's neutral element, so it contributes nothing). -/
theorem sumMid3_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  refine (Ideal.multiReduction_add_single src acc h hφ hacc (ix2 p r)).trans ?_
  show ∑ k : Fin b, src (h.lift (ix2 p r) k) = _
  refine Finset.sum_congr rfl fun k _ => congrArg src ?_
  funext d; apply Fin.ext
  match d with
  | ⟨0, _⟩ => rfl
  | ⟨1, _⟩ => rfl
  | ⟨2, _⟩ => rfl

end Cert.LibSumMid3
-- ==== Proof.LibWeightedRows.lean ====
/-
  Rows of a rank-3 array against per-row vectors, read at an index on the extended reals.

  For an array x of shape [a, b, c], a matrix v of shape [a, c] and a matrix w of shape [a, b]:
    * the sum over the last axis of x · v, v repeated along the middle axis: at (p, q) it is ∑ₖ x(p,q,k) · v(p,k);
    * the sum over the last axis of x · x: at (p, q) it is ∑ₖ x(p,q,k) · x(p,q,k);
    * the sum over the middle axis of w · x, w repeated along the last axis: at (p, r) it is ∑ₖ w(p,k) · x(p,k,r);
    * the update x · ((one − w · e) + w · d) with w repeated along the last axis and e, d (both [a, c]) along the
      middle one: at (p, q, r) it is x(p,q,r) · ((one − w(p,q) · e(p,r)) + w(p,q) · d(p,r)).
  Any extents, any float format. The reductions start from the sum's neutral element, which contributes nothing.
  It imports LibFlatten.lean, LibRank3Unit.lean and LibSumMid3.lean: copy those three with it.
-/
import Idealize.ShloMosaic.Lib.Pipeline.Value
import Idealize.ShloMosaic.Lib.ValueIdx
import Idealize.ShloMosaic.PureOps.Ideal.Laws
import proofs.«145907_j54546084660145_2_alg».proof.Proof.LibFlatten
import proofs.«145907_j54546084660145_2_alg».proof.Proof.LibRank3Unit
import proofs.«145907_j54546084660145_2_alg».proof.Proof.LibSumMid3

open scoped BigOperators

noncomputable section

namespace Cert.LibWeightedRows

open Idealize.ShloMosaic Idealize.ShloMosaic.ValueIdx

/-- The per-row vector repeated along the middle axis reads, at (p, q, r), the vector's entry (p, r). -/
theorem rowVec_apply {α : Type} {a b c : ℕ} (v : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (q : Fin b) (r : Fin c) :
    broadcastTo ⟨3, ![a, b, c]⟩ (shapeCast ⟨3, ![a, 1, c]⟩ v h1) h2 (ix3 p q r) = v (ix2 p r) := by
  rw [Cert.LibRank3Unit.spread_a1c_abc, Cert.LibRank3Unit.cast_ac_a1c]

/-- The per-position weight repeated along the last axis reads, at (p, q, r), the weight's entry (p, q). -/
theorem posWeight_apply {α : Type} {a b c : ℕ} (w : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (r : Fin c) :
    broadcastTo ⟨3, ![a, b, c]⟩ (shapeCast ⟨3, ![a, b, 1]⟩ w h1) h2 (ix3 p q r) = w (ix2 p q) := by
  rw [Cert.LibFlatten.spread_ab1_abc_apply, Cert.LibFlatten.cast_ab_ab1_apply]

/-- Each position's row against its batch's vector: ∑ₖ x(p,q,k) · v(p,k). -/
theorem rowDot_apply {a b c : ℕ} {φ : FTy} (x : FVec Ideal ⟨3, ![a, b, c]⟩ φ) (v : FVec Ideal ⟨2, ![a, c]⟩ φ)
    (h1 : (⟨2, ![a, c]⟩ : Shape).ShapeCasts ⟨3, ![a, 1, c]⟩) (h2 : (⟨3, ![a, 1, c]⟩ : Shape).Broadcasts ⟨3, ![a, b, c]⟩)
    (acc : BitVec φ.bits) (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩
        (mulf x (broadcastTo ⟨3, ![a, b, c]⟩ (shapeCast ⟨3, ![a, 1, c]⟩ v h1) h2)) acc h hφ hacc (ix2 p q)
      = ∑ k : Fin c, x (ix3 p q k) * v (ix2 p k) := by
  rw [Cert.LibFlatten.sumLast3_apply]
  refine Finset.sum_congr rfl fun k _ => ?_
  rw [mulf_apply, rowVec_apply]

/-- Each position's row against itself: ∑ₖ x(p,q,k) · x(p,q,k). -/
theorem rowSq_apply {a b c : ℕ} {φ : FTy} (x : FVec Ideal ⟨3, ![a, b, c]⟩ φ)
    (acc : BitVec φ.bits) (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ (mulf x x) acc h hφ hacc (ix2 p q)
      = ∑ k : Fin c, x (ix3 p q k) * x (ix3 p q k) := by
  rw [Cert.LibFlatten.sumLast3_apply]
  refine Finset.sum_congr rfl fun k _ => ?_
  rw [mulf_apply]

/-- The positions of a batch weighted and summed: ∑ₖ w(p,k) · x(p,k,r). -/
theorem weightedSum_apply {a b c : ℕ} {φ : FTy} (w : FVec Ideal ⟨2, ![a, b]⟩ φ) (x : FVec Ideal ⟨3, ![a, b, c]⟩ φ)
    (h1 : (⟨2, ![a, b]⟩ : Shape).ShapeCasts ⟨3, ![a, b, 1]⟩) (h2 : (⟨3, ![a, b, 1]⟩ : Shape).Broadcasts ⟨3, ![a, b, c]⟩)
    (acc : BitVec φ.bits) (h : (⟨3, ![a, b, c]⟩ : Shape).Reduces [1] ⟨2, ![a, c]⟩) (hφ : FKind.Formats φ)
    (hacc : acc = FKind.add.neutral φ hφ) (p : Fin a) (r : Fin c) :
    multiReduction .add [1] ⟨2, ![a, c]⟩
        (mulf (broadcastTo ⟨3, ![a, b, c]⟩ (shapeCast ⟨3, ![a, b, 1]⟩ w h1) h2) x) acc h hφ hacc (ix2 p r)
      = ∑ k : Fin b, w (ix2 p k) * x (ix3 p k r) := by
  rw [Cert.LibSumMid3.sumMid3_apply]
  refine Finset.sum_congr rfl fun k _ => ?_
  rw [mulf_apply, posWeight_apply]

/-- The erase-and-add update of one entry: x · ((one − w · e) + w · d). -/
theorem eraseAdd_apply {a b c : ℕ} {φ : FTy} (x : FVec Ideal ⟨3, ![a, b, c]⟩ φ) (w : FVec Ideal ⟨2, ![a, b]⟩ φ)
    (e d : FVec Ideal ⟨2, ![a, c]⟩ φ) (one : Ideal φ)
    (hw1 : (⟨2, ![a, b]⟩ : Shape).ShapeCasts ⟨3, ![a, b, 1]⟩) (hw2 : (⟨3, ![a, b, 1]⟩ : Shape).Broadcasts ⟨3, ![a, b, c]⟩)
    (hv1 : (⟨2, ![a, c]⟩ : Shape).ShapeCasts ⟨3, ![a, 1, c]⟩) (hv2 : (⟨3, ![a, 1, c]⟩ : Shape).Broadcasts ⟨3, ![a, b, c]⟩)
    (p : Fin a) (q : Fin b) (r : Fin c) :
    mulf x (addf (subf (broadcast ⟨3, ![a, b, c]⟩ one)
          (mulf (broadcastTo ⟨3, ![a, b, c]⟩ (shapeCast ⟨3, ![a, b, 1]⟩ w hw1) hw2)
            (broadcastTo ⟨3, ![a, b, c]⟩ (shapeCast ⟨3, ![a, 1, c]⟩ e hv1) hv2)))
        (mulf (broadcastTo ⟨3, ![a, b, c]⟩ (shapeCast ⟨3, ![a, b, 1]⟩ w hw1) hw2)
          (broadcastTo ⟨3, ![a, b, c]⟩ (shapeCast ⟨3, ![a, 1, c]⟩ d hv1) hv2))) (ix3 p q r)
      = x (ix3 p q r) * ((one - w (ix2 p q) * e (ix2 p r)) + w (ix2 p q) * d (ix2 p r)) := by
  rw [mulf_apply, addf_apply, subf_apply, mulf_apply, mulf_apply, broadcast_apply, posWeight_apply, rowVec_apply,
    rowVec_apply]

end Cert.LibWeightedRows

end
-- ==== Proof.Region0.lean ====
/-
  The first region's two results as whole arrays, on the extended reals.

  The region walks the memory [64, 16384, 64] in blocks of 16 batches by 2048 positions (a 4 by 8 grid). At a point the
  body holds a memory block x and the 16 key rows v of its batches, and stores, for every position of the block, the
  row's product with the key, ∑ₖ x(p,q,k) · v(p,k), and the row's square, ∑ₖ x(p,q,k) · x(p,q,k). Every point writes
  its two blocks back, the blocks tile [64, 16384], and a block's entry (p, q) sits at batch 16·(block row) + p,
  position 2048·(block column) + q, where the input blocks sit too. So the two arrays end as
      dots(b, n) = ∑ₖ M(b,n,k) · K(b,k)        squares(b, n) = ∑ₖ M(b,n,k) · M(b,n,k).
-/
import proofs.«145907_j54546084660145_2_alg».proof.Proof.Gen.KernelIdeal.Frame
import proofs.«145907_j54546084660145_2_alg».proof.Proof.LibWeightedRows
import Idealize.ShloMosaic.Lib.Pipeline.Value
import Idealize.ShloMosaic.Lib.ValueIdx

open scoped BigOperators

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Every position's memory row against its batch's key row. -/
def rowDots (M : FVec Ideal S64x16384x64 .f32) (K : FVec Ideal S64x64 .f32) : FVec Ideal S64x16384 .f32 :=
  fun i => ∑ k : Fin 64, M (ix3 (i 0) (i 1) k) * K (ix2 (i 0) k)

/-- Every position's memory row against itself. -/
def rowSquares (M : FVec Ideal S64x16384x64 .f32) : FVec Ideal S64x16384 .f32 :=
  fun i => ∑ k : Fin 64, M (ix3 (i 0) (i 1) k) * M (ix3 (i 0) (i 1) k)

/-! ## The body's two stored values at an entry of the block -/

theorem dot_at (x : Vec Ideal S16x2048x64 .f32) (v : Vec Ideal S16x64 .f32) (p : Fin 16) (q : Fin 2048) :
    k0_pay1 x v (ix2 p q) = ∑ k : Fin 64, x (ix3 p q k) * v (ix2 p k) := by
  unfold k0_pay1
  exact Cert.LibWeightedRows.rowDot_apply (a := 16) (b := 2048) (c := 64) x v _ _ _ _ _ _ p q

theorem square_at (x : Vec Ideal S16x2048x64 .f32) (p : Fin 16) (q : Fin 2048) :
    k0_pay2 x (ix2 p q) = ∑ k : Fin 64, x (ix3 p q k) * x (ix3 p q k) := by
  unfold k0_pay2
  exact Cert.LibWeightedRows.rowSq_apply (a := 16) (b := 2048) (c := 64) x _ _ _ _ p q

/-! ## Where the blocks sit -/

theorem hz2 : (![0, 0] : Fin 2 → Nat) = fun _ => 0 := funext fun a => by fin_cases a <;> rfl
theorem hz3 : (![0, 0, 0] : Fin 3 → Nat) = fun _ => 0 := funext fun a => by fin_cases a <;> rfl

/-- At every point the memory block, the key block and the two result blocks share their block row, the memory block and
    the result blocks their block column; the key block's column and the memory block's depth index are 0. -/
theorem idx_facts : ∀ t : Fin cfg0.N,
    win0_0.index t (0 : Fin 3) = win0_2.index t (0 : Fin 2) ∧ win0_0.index t (1 : Fin 3) = win0_2.index t (1 : Fin 2)
    ∧ win0_0.index t (2 : Fin 3) = 0
    ∧ win0_1.index t (0 : Fin 2) = win0_2.index t (0 : Fin 2) ∧ win0_1.index t (1 : Fin 2) = 0
    ∧ win0_3.index t (0 : Fin 2) = win0_2.index t (0 : Fin 2) ∧ win0_3.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every block of the 4 by 8 tiling is some point's. -/
theorem idx_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- The memory block's entry (p, q, k) at a point is the memory at the result block's place (p, q), depth k. -/
theorem mem_blk_at (c : Dev nD) (t : Fin cfg0.N) (p : Fin 16) (q : Fin 2048) (k : Fin 64) :
    iblk0 V c 0 t (ix3 p q k)
      = V c main_arg0 (ix3 ((((cfg0.win 2).blk t).view.emb (ix2 p q)) 0) ((((cfg0.win 2).blk t).view.emb (ix2 p q)) 1) k) := by
  obtain ⟨e00, e01, e02, e10, e11, e30, e31, b0, b1⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 16 + 1 * p.val = win0_2.index t (0 : Fin 2) * 16 + 1 * p.val; omega
  | ⟨1, _⟩ => show win0_0.index t (1 : Fin 3) * 2048 + 1 * q.val = win0_2.index t (1 : Fin 2) * 2048 + 1 * q.val; omega
  | ⟨2, _⟩ => show win0_0.index t (2 : Fin 3) * 64 + 1 * k.val = k.val; omega

/-- The key block's entry (p, k) at a point is the key at the result block's batch p, column k. -/
theorem key_blk_at (c : Dev nD) (t : Fin cfg0.N) (p : Fin 16) (q : Fin 2048) (k : Fin 64) :
    iblk0 V c 1 t (ix2 p k) = V c main_arg1 (ix2 ((((cfg0.win 2).blk t).view.emb (ix2 p q)) 0) k) := by
  obtain ⟨e00, e01, e02, e10, e11, e30, e31, b0, b1⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 2) * 16 + 1 * p.val = win0_2.index t (0 : Fin 2) * 16 + 1 * p.val; omega
  | ⟨1, _⟩ => show win0_1.index t (1 : Fin 2) * 64 + 1 * k.val = k.val; omega

/-! ## What each point writes back -/

theorem flushed_dots (c : Dev nD) (t : Fin cfg0.N) :
    (dat0 V c).flushed 2 t = ((cfg0.win 2).blk t).view.read (Elt Ideal) (rowDots (V c main_arg0) (V c main_arg1)) := by
  show (cfg0.win 2).cut (grid0.coords t) ((dat0 V c).after 2 t) = _
  rw [after0_2]
  unfold out0_2
  rw [View.canon_unit_zero hz2]
  simp only [View.ld_unit_zero (S := S16x2048x64) hz3, View.ld_unit_zero (S := S16x64) hz2]
  funext j
  obtain ⟨p, q, rfl⟩ : ∃ (p : Fin 16) (q : Fin 2048), j = ix2 p q := ⟨j 0, j 1, eq_ix2 j⟩
  refine (dot_at (iblk0 V c 0 t) (iblk0 V c 1 t) p q).trans ?_
  rw [View.read_apply]
  unfold rowDots
  refine Finset.sum_congr rfl fun k _ => ?_
  rw [mem_blk_at V c t p q k, key_blk_at V c t p q k]

theorem flushed_squares (c : Dev nD) (t : Fin cfg0.N) :
    (dat0 V c).flushed 3 t = ((cfg0.win 3).blk t).view.read (Elt Ideal) (rowSquares (V c main_arg0)) := by
  obtain ⟨e00, e01, e02, e10, e11, e30, e31, b0, b1⟩ := idx_facts t
  show (cfg0.win 3).cut (grid0.coords t) ((dat0 V c).after 3 t) = _
  rw [after0_3]
  unfold out0_3
  rw [View.canon_unit_zero hz2]
  simp only [View.ld_unit_zero (S := S16x2048x64) hz3]
  funext j
  obtain ⟨p, q, rfl⟩ : ∃ (p : Fin 16) (q : Fin 2048), j = ix2 p q := ⟨j 0, j 1, eq_ix2 j⟩
  refine (square_at (iblk0 V c 0 t) p q).trans ?_
  rw [View.read_apply]
  unfold rowSquares
  refine Finset.sum_congr rfl fun k _ => ?_
  rw [mem_blk_at V c t p q k]
  have he : ((cfg0.win 3).blk t).view.emb (ix2 p q) = ((cfg0.win 2).blk t).view.emb (ix2 p q) := by
    funext a; apply Fin.ext
    match a with
    | ⟨0, _⟩ => show win0_3.index t (0 : Fin 2) * 16 + 1 * p.val = win0_2.index t (0 : Fin 2) * 16 + 1 * p.val; omega
    | ⟨1, _⟩ => show win0_3.index t (1 : Fin 2) * 2048 + 1 * q.val = win0_2.index t (1 : Fin 2) * 2048 + 1 * q.val; omega
  rw [he]

/-! ## The blocks tile the arrays -/

theorem mem_blk2 (t : Fin cfg0.N) (i : S64x16384.Idx) :
    i ∈ ((cfg0.win 2).blk t).view.set ↔ ∀ a : Fin 2, win0_2.index t a * S16x2048.size a ≤ (i a).val ∧ (i a).val < win0_2.index t a * S16x2048.size a + S16x2048.size a := by
  show i ∈ ((View.whole main_v0_0).slice (win0_2.rect t)).set ↔ _
  rw [View.set_slice_whole, Rect.mem_set_unit]
  exact Iff.rfl

theorem mem_blk3 (t : Fin cfg0.N) (i : S64x16384.Idx) :
    i ∈ ((cfg0.win 3).blk t).view.set ↔ ∀ a : Fin 2, win0_3.index t a * S16x2048.size a ≤ (i a).val ∧ (i a).val < win0_3.index t a * S16x2048.size a + S16x2048.size a := by
  show i ∈ ((View.whole main_v0_1).slice (win0_3.rect t)).set ↔ _
  rw [View.set_slice_whole, Rect.mem_set_unit]
  exact Iff.rfl

theorem cover2 (i : S64x16384.Idx) :
    ∃ t : Fin cfg0.N, (cfg0.win 2).flush t = true ∧ i ∈ ((cfg0.win 2).blk t).view.set := by
  have hi0 : (i 0).val < 64 := (i 0).isLt
  have hi1 : (i 1).val < 16384 := (i 1).isLt
  obtain ⟨t, ht⟩ := idx_onto ⟨(i 0).val / 16, by omega⟩ ⟨(i 1).val / 2048, by omega⟩
  have q0 : win0_2.index t (0 : Fin 2) = (i 0).val / 16 := congrFun ht 0
  have q1 : win0_2.index t (1 : Fin 2) = (i 1).val / 2048 := congrFun ht 1
  refine ⟨t, flush0_2 t, ?_⟩
  rw [mem_blk2]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 2048 ≤ (i 1).val ∧ (i 1).val < win0_2.index t (1 : Fin 2) * 2048 + 2048; omega

theorem cover3 (i : S64x16384.Idx) :
    ∃ t : Fin cfg0.N, (cfg0.win 3).flush t = true ∧ i ∈ ((cfg0.win 3).blk t).view.set := by
  have hi0 : (i 0).val < 64 := (i 0).isLt
  have hi1 : (i 1).val < 16384 := (i 1).isLt
  obtain ⟨t, ht⟩ := idx_onto ⟨(i 0).val / 16, by omega⟩ ⟨(i 1).val / 2048, by omega⟩
  obtain ⟨e00, e01, e02, e10, e11, e30, e31, b0, b1⟩ := idx_facts t
  have q0 : win0_2.index t (0 : Fin 2) = (i 0).val / 16 := congrFun ht 0
  have q1 : win0_2.index t (1 : Fin 2) = (i 1).val / 2048 := congrFun ht 1
  refine ⟨t, flush0_3 t, ?_⟩
  rw [mem_blk3]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 2048 ≤ (i 1).val ∧ (i 1).val < win0_3.index t (1 : Fin 2) * 2048 + 2048; omega

/-! ## The two arrays after the region -/

theorem final_dots (c : Dev nD) :
    (dat0 V c).arrAt 2 cfg0.N = rowDots (V c main_arg0) (V c main_arg1) :=
  (dat0 V c).arrAt_eq_of_cover 2 (rowDots (V c main_arg0) (V c main_arg1)) (fun t _ => flushed_dots V c t) cover2

theorem final_squares (c : Dev nD) :
    (dat0 V c).arrAt 3 cfg0.N = rowSquares (V c main_arg0) :=
  (dat0 V c).arrAt_eq_of_cover 3 (rowSquares (V c main_arg0)) (fun t _ => flushed_squares V c t) cover3

end Cert.KernelIdeal.Region0

end
-- ==== Proof.LibBlockSum.lean ====
/-
  Sums cut into consecutive runs, and arrays read at natural-number coordinates.

  A sum over the first n·b naturals is the sum over n runs of b consecutive ones; over `Fin (n·b)` it is the sum over the
  runs of the sums over `Fin b`. This is the only law that joins a contraction over 4096 coordinates to the same
  contraction taken 1024 coordinates at a time: it uses that addition is associative and commutative, nothing else, so it
  holds in any commutative monoid — the extended reals among them, infinities included.

  A matrix read at a pair of naturals (each taken modulo its extent, so that the read is total) lets a block's entry be
  named by arithmetic on its position, with no proof that the position is in range carried inside a sum.
-/
import Idealize.ShloMosaic.Lib.ValueIdx

open scoped BigOperators

namespace Cert.LibBlockSum

open Idealize.ShloMosaic Idealize.ShloMosaic.ValueIdx

/-! ## A sum cut into runs -/

/-- The first `n · b` naturals are `n` runs of `b`: run `s` is `s·b, …, s·b + b − 1`. -/
theorem sum_range_runs {β : Type*} [AddCommMonoid β] (f : ℕ → β) (b : ℕ) : ∀ n : ℕ,
    ∑ k ∈ Finset.range (n * b), f k = ∑ s ∈ Finset.range n, ∑ d ∈ Finset.range b, f (s * b + d)
  | 0 => by simp
  | n + 1 => by
    rw [Nat.succ_mul, Finset.sum_range_add, sum_range_runs f b n, Finset.sum_range_succ]

/-- The same over `Fin (n · b)` and `Fin b`. -/
theorem sum_fin_runs {β : Type*} [AddCommMonoid β] (f : ℕ → β) (n b : ℕ) :
    ∑ k : Fin (n * b), f k.val = ∑ s ∈ Finset.range n, ∑ d : Fin b, f (s * b + d.val) := by
  rw [Fin.sum_univ_eq_sum_range (fun k => f k) (n * b), sum_range_runs f b n]
  refine Finset.sum_congr rfl fun s _ => ?_
  rw [← Fin.sum_univ_eq_sum_range (fun d => f (s * b + d)) b]

/-! ## A matrix read at natural coordinates -/

/-- The entry of an `[a, b]` array at row `r`, column `k`, the two taken modulo the extents. -/
def nat2 {α : Type} (a b : ℕ) (ha : 0 < a) (hb : 0 < b) (A : (⟨2, ![a, b]⟩ : Shape).Idx → α) (r k : ℕ) : α :=
  A (ix2 ⟨r % a, Nat.mod_lt _ ha⟩ ⟨k % b, Nat.mod_lt _ hb⟩)

/-- At coordinates in range it is the entry there. -/
theorem nat2_eq {α : Type} (a b : ℕ) (ha : 0 < a) (hb : 0 < b) (A : (⟨2, ![a, b]⟩ : Shape).Idx → α) (r k : ℕ)
    (i : (⟨2, ![a, b]⟩ : Shape).Idx) (h0 : (i 0).val = r) (h1 : (i 1).val = k) : nat2 a b ha hb A r k = A i := by
  unfold nat2
  refine congrArg A (funext fun d => Fin.ext ?_)
  match d with
  | ⟨0, _⟩ => show r % a = (i 0).val; rw [← h0]; exact Nat.mod_eq_of_lt (idx2_lt0 i)
  | ⟨1, _⟩ => show k % b = (i 1).val; rw [← h1]; exact Nat.mod_eq_of_lt (idx2_lt1 i)

end Cert.LibBlockSum
-- ==== Proof.Region1.lean ====
/-
  The second region's two results as whole arrays, on the extended reals.

  The region walks the memory in blocks of 16 batches by 1024 positions: a 4 by 16 grid, the position blocks of one batch
  block visited one after the other. At a point the body holds a memory block x, the block's weights w, and the erase and
  add rows e, d of its 16 batches. It stores the updated block x · ((1 − w·e) + w·d), which is written back at every
  point, and it adds ∑_q w(p,q) · x(p,q,r) to a [16, 64] accumulator that it sets to zero at the first position block of
  a batch block, keeps in place between the points, and writes back after the sixteenth. So after position block s the
  accumulator holds the sum over the position blocks 0 … s seen so far (by induction on the point), the sixteen runs of
  1024 positions make up the 16384 positions of a batch, and the two arrays end as
      read(b, r) = ∑ₙ W(b,n) · M(b,n,r)        new(b, n, r) = M(b,n,r) · ((1 − W(b,n)·E(b,r)) + W(b,n)·D(b,r)).
-/
import proofs.«145907_j54546084660145_2_alg».proof.Proof.Gen.KernelIdeal.Frame
import proofs.«145907_j54546084660145_2_alg».proof.Proof.LibWeightedRows
import proofs.«145907_j54546084660145_2_alg».proof.Proof.LibBlockSum
import Idealize.ShloMosaic.Lib.Pipeline.Value
import Idealize.ShloMosaic.Lib.ValueIdx
import Idealize.ShloMosaic.Lib.Tactic

open scoped BigOperators

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case leaves in the two outputs' buffers -/

section Pieces
variable {F : FTy → Type} [FloatOps F]

/-- Not the first position block: the accumulator's buffer, holding acc, is left at acc + (the block's weighted sum). -/
theorem read_later (c : Dev nD) (i : grid1.Coords) (a2 : Memref sig .tc .vmem S16x1024x64 .f32) (h2 : a2.IsWhole) (a3 : Memref sig .tc .vmem S16x1024 .f32) (h3 : a3.IsWhole) (a4 : Memref sig .tc .vmem S16x64 .f32) (h4 : a4.IsWhole) (a5 : Memref sig .tc .vmem S16x64 .f32) (h5 : a5.IsWhole) (a6 : Memref sig .tc .vmem S16x64 .f32) (h6 : a6.IsWhole) (a7 : Memref sig .tc .vmem S16x1024x64 .f32) (h7 : a7.IsWhole) (hc : ¬cond1_0 i) (x0 : Vec F S16x1024x64 .f32) (x1 : Vec F S16x1024 .f32) (x2 x3 xo4 : Vec F S16x64 .f32) :
    out1_B_4 c i a2 h2 a3 h3 a4 h4 a5 h5 a6 h6 a7 h7 hc x0 x1 x2 x3 xo4 = k1_pay4 x0 x1 xo4 := by
  unfold out1_B_4
  rw [View.read_writes_eq_canon _ _ _ (cover1_B_4 c i a2 h2 a3 h3 a4 h4 a5 h5 a6 h6 a7 h7 hc x0 x1 x2 x3 xo4)]
  unfold kernelRun1_B
  dsimp only
  rw [View.canon_unit_zero hz2]
  simp only [View.readAt_eq_ld, h2.read_unread, h3.read_unread, h6.read_unread, View.ld_unit_zero (S := S16x1024x64) hz3,
    View.ld_unit_zero (S := S16x1024) hz2, View.ld_unit_zero (S := S16x64) hz2]

/-- The first position block: the buffer is set to zero, read back, and left at 0 + (the block's weighted sum). -/
theorem read_first (c : Dev nD) (i : grid1.Coords) (a2 : Memref sig .tc .vmem S16x1024x64 .f32) (h2 : a2.IsWhole) (a3 : Memref sig .tc .vmem S16x1024 .f32) (h3 : a3.IsWhole) (a4 : Memref sig .tc .vmem S16x64 .f32) (h4 : a4.IsWhole) (a5 : Memref sig .tc .vmem S16x64 .f32) (h5 : a5.IsWhole) (a6 : Memref sig .tc .vmem S16x64 .f32) (h6 : a6.IsWhole) (a7 : Memref sig .tc .vmem S16x1024x64 .f32) (h7 : a7.IsWhole) (hc : cond1_0 i) (x0 : Vec F S16x1024x64 .f32) (x1 : Vec F S16x1024 .f32) (x2 x3 : Vec F S16x64 .f32) :
    out1_A_4 c i a2 h2 a3 h3 a4 h4 a5 h5 a6 h6 a7 h7 hc x0 x1 x2 x3 = k1_pay4 x0 x1 (k1_pay1 (F := F)) := by
  unfold out1_A_4
  rw [View.read_writes_eq_canon _ _ _ (cover1_A_4 c i a2 h2 a3 h3 a4 h4 a5 h5 a6 h6 a7 h7 hc x0 x1 x2 x3)]
  unfold kernelRun1_A
  dsimp only
  sl_unfold_words
  rw [View.canon_cons_unit_zero (S := S16x64) hz2, View.readCov_unit_zero (S := S16x64) _ hz2]
  simp only [View.readAt_eq_ld, h2.read_unread, h3.read_unread, View.ld_unit_zero (S := S16x1024x64) hz3,
    View.ld_unit_zero (S := S16x1024) hz2, View.ld_unit_zero (S := S16x64) hz2]

/-- In both cases the new-memory buffer is left at the updated block. -/
theorem write_later (c : Dev nD) (i : grid1.Coords) (a2 : Memref sig .tc .vmem S16x1024x64 .f32) (h2 : a2.IsWhole) (a3 : Memref sig .tc .vmem S16x1024 .f32) (h3 : a3.IsWhole) (a4 : Memref sig .tc .vmem S16x64 .f32) (h4 : a4.IsWhole) (a5 : Memref sig .tc .vmem S16x64 .f32) (h5 : a5.IsWhole) (a6 : Memref sig .tc .vmem S16x64 .f32) (h6 : a6.IsWhole) (a7 : Memref sig .tc .vmem S16x1024x64 .f32) (h7 : a7.IsWhole) (hc : ¬cond1_0 i) (x0 : Vec F S16x1024x64 .f32) (x1 : Vec F S16x1024 .f32) (x2 x3 xo4 : Vec F S16x64 .f32) :
    out1_B_5 c i a2 h2 a3 h3 a4 h4 a5 h5 a6 h6 a7 h7 hc x0 x1 x2 x3 xo4 = k1_pay3 x0 x1 x2 x3 := by
  unfold out1_B_5
  rw [View.read_writes_eq_canon _ _ _ (cover1_B_5 c i a2 h2 a3 h3 a4 h4 a5 h5 a6 h6 a7 h7 hc x0 x1 x2 x3 xo4)]
  unfold kernelRun1_B
  dsimp only
  rw [View.canon_unit_zero hz3]
  simp only [View.readAt_eq_ld, h2.read_unread, h3.read_unread, h4.read_unread, h5.read_unread,
    View.ld_unit_zero (S := S16x1024x64) hz3, View.ld_unit_zero (S := S16x1024) hz2, View.ld_unit_zero (S := S16x64) hz2]

theorem write_first (c : Dev nD) (i : grid1.Coords) (a2 : Memref sig .tc .vmem S16x1024x64 .f32) (h2 : a2.IsWhole) (a3 : Memref sig .tc .vmem S16x1024 .f32) (h3 : a3.IsWhole) (a4 : Memref sig .tc .vmem S16x64 .f32) (h4 : a4.IsWhole) (a5 : Memref sig .tc .vmem S16x64 .f32) (h5 : a5.IsWhole) (a6 : Memref sig .tc .vmem S16x64 .f32) (h6 : a6.IsWhole) (a7 : Memref sig .tc .vmem S16x1024x64 .f32) (h7 : a7.IsWhole) (hc : cond1_0 i) (x0 : Vec F S16x1024x64 .f32) (x1 : Vec F S16x1024 .f32) (x2 x3 : Vec F S16x64 .f32) :
    out1_A_5 c i a2 h2 a3 h3 a4 h4 a5 h5 a6 h6 a7 h7 hc x0 x1 x2 x3 = k1_pay3 x0 x1 x2 x3 := by
  unfold out1_A_5
  rw [View.read_writes_eq_canon _ _ _ (cover1_A_5 c i a2 h2 a3 h3 a4 h4 a5 h5 a6 h6 a7 h7 hc x0 x1 x2 x3)]
  unfold kernelRun1_A
  dsimp only
  sl_unfold_words
  rw [View.canon_unit_zero hz3]
  simp only [View.readAt_eq_ld, h2.read_unread, h3.read_unread, h4.read_unread, h5.read_unread,
    View.ld_unit_zero (S := S16x1024x64) hz3, View.ld_unit_zero (S := S16x1024) hz2, View.ld_unit_zero (S := S16x64) hz2]

end Pieces

variable (V : (c : Dev nD) → (b : Ref sig .tc) → Buf (Elt Ideal) ((c : Thread nD τ).loc b))

/-! ## The accumulator after each point -/

/-- The accumulator's buffer after point n: zero plus the block's weighted sum at the first position block of a batch
    block, the point before's contents plus the block's weighted sum otherwise. -/
def acc (c : Dev nD) : (n : ℕ) → n < cfg1.N → Vec Ideal S16x64 .f32
  | 0, h => k1_pay4 (iblk1 V c 0 ⟨0, h⟩) (iblk1 V c 1 ⟨0, h⟩) (k1_pay1 (F := Ideal))
  | n + 1, h =>
    if (n + 1) % 16 = 0 then k1_pay4 (iblk1 V c 0 ⟨n + 1, h⟩) (iblk1 V c 1 ⟨n + 1, h⟩) (k1_pay1 (F := Ideal))
    else k1_pay4 (iblk1 V c 0 ⟨n + 1, h⟩) (iblk1 V c 1 ⟨n + 1, h⟩) (acc c n (Nat.lt_of_succ_lt h))

theorem acc_zero (c : Dev nD) (h : 0 < cfg1.N) :
    acc V c 0 h = k1_pay4 (iblk1 V c 0 ⟨0, h⟩) (iblk1 V c 1 ⟨0, h⟩) (k1_pay1 (F := Ideal)) := rfl
theorem acc_first (c : Dev nD) (n : ℕ) (h : n + 1 < cfg1.N) (h0 : (n + 1) % 16 = 0) :
    acc V c (n + 1) h = k1_pay4 (iblk1 V c 0 ⟨n + 1, h⟩) (iblk1 V c 1 ⟨n + 1, h⟩) (k1_pay1 (F := Ideal)) := if_pos h0
theorem acc_later (c : Dev nD) (n : ℕ) (h : n + 1 < cfg1.N) (h0 : ¬(n + 1) % 16 = 0) :
    acc V c (n + 1) h = k1_pay4 (iblk1 V c 0 ⟨n + 1, h⟩) (iblk1 V c 1 ⟨n + 1, h⟩) (acc V c n (Nat.lt_of_succ_lt h)) := if_neg h0

/-- What the two outputs' buffers hold after point n: the accumulator, and the point's updated block. -/
theorem outsAt_eq (c : Dev nD) : ∀ (n : ℕ) (h : n < cfg1.N),
    outsAt1 V c n h = (acc V c n h,
      k1_pay3 (iblk1 V c 0 ⟨n, h⟩) (iblk1 V c 1 ⟨n, h⟩) (iblk1 V c 2 ⟨n, h⟩) (iblk1 V c 3 ⟨n, h⟩))
  | 0, h => by
    rw [outsAt1_A V c ⟨0, h⟩ rfl, read_first, write_first, acc_zero]
  | n + 1, h => by
    by_cases h0 : (n + 1) % 16 = 0
    · rw [outsAt1_A V c ⟨n + 1, h⟩ h0, read_first, write_first]
      rw [acc_first V c n h h0]
    · rw [outsAt1_B V c ⟨n + 1, h⟩ h0, read_later, write_later]
      show (k1_pay4 _ _ (outsAt1 V c n _).1, _) = (acc V c (n + 1) h, _)
      rw [outsAt_eq c n, acc_later V c n h h0]

/-! ## The body's stored values at an entry -/

theorem zero_at (p : Fin 16) (r : Fin 64) : k1_pay1 (F := Ideal) (ix2 p r) = 0 := by
  unfold k1_pay1
  rw [broadcast_apply]
  exact Ideal.ofBits_zero_f32

theorem accum_at (x : Vec Ideal S16x1024x64 .f32) (w : Vec Ideal S16x1024 .f32) (xo : Vec Ideal S16x64 .f32)
    (p : Fin 16) (r : Fin 64) :
    k1_pay4 x w xo (ix2 p r) = xo (ix2 p r) + ∑ d : Fin 1024, w (ix2 p d) * x (ix3 p d r) := by
  unfold k1_pay4 k1_pay2
  rw [addf_apply, shapeCast_self, shapeCast_self]
  exact congrArg (xo (ix2 p r) + ·)
    (Cert.LibWeightedRows.weightedSum_apply (a := 16) (b := 1024) (c := 64) w x _ _ _ _ _ _ p r)

theorem update_at (x : Vec Ideal S16x1024x64 .f32) (w : Vec Ideal S16x1024 .f32) (e d : Vec Ideal S16x64 .f32)
    (p : Fin 16) (q : Fin 1024) (r : Fin 64) :
    k1_pay3 x w e d (ix3 p q r)
      = x (ix3 p q r) * ((Ideal.ofBits .f32 0x3F800000#32 - w (ix2 p q) * e (ix2 p r)) + w (ix2 p q) * d (ix2 p r)) := by
  unfold k1_pay3 k1_pay2
  rw [shapeCast_self]
  exact Cert.LibWeightedRows.eraseAdd_apply (a := 16) (b := 1024) (c := 64) x w e d _ _ _ _ _ p q r

/-! ## Where the blocks sit -/

/-- At point t every window's block row is t / 16; the memory, weight and new-memory blocks' position block is t % 16. -/
theorem idx_facts : ∀ t : Fin cfg1.N,
    win1_0.index t (0 : Fin 3) = t.val / 16 ∧ win1_0.index t (1 : Fin 3) = t.val % 16 ∧ win1_0.index t (2 : Fin 3) = 0
    ∧ win1_1.index t (0 : Fin 2) = t.val / 16 ∧ win1_1.index t (1 : Fin 2) = t.val % 16
    ∧ win1_2.index t (0 : Fin 2) = t.val / 16 ∧ win1_2.index t (1 : Fin 2) = 0
    ∧ win1_3.index t (0 : Fin 2) = t.val / 16 ∧ win1_3.index t (1 : Fin 2) = 0
    ∧ win1_4.index t (0 : Fin 2) = t.val / 16 ∧ win1_4.index t (1 : Fin 2) = 0
    ∧ win1_5.index t (0 : Fin 3) = t.val / 16 ∧ win1_5.index t (1 : Fin 3) = t.val % 16 ∧ win1_5.index t (2 : Fin 3) = 0 :=
  (by decide +kernel : ∀ t : Fin grid1.N, _)

/-- The weights and the memory read at natural-number coordinates (taken modulo the extents). -/
def wAt (c : Dev nD) (b n : ℕ) : Ideal .f32 :=
  V c main_v54 (ix2 (⟨b % 64, Nat.mod_lt _ (by decide)⟩ : Fin 64) (⟨n % 16384, Nat.mod_lt _ (by decide)⟩ : Fin 16384))
def mAt (c : Dev nD) (b n : ℕ) (r : Fin 64) : Ideal .f32 :=
  V c main_arg0 (ix3 (⟨b % 64, Nat.mod_lt _ (by decide)⟩ : Fin 64) (⟨n % 16384, Nat.mod_lt _ (by decide)⟩ : Fin 16384) r)

theorem wAt_eq (c : Dev nD) (b n : ℕ) (i : S64x16384.Idx) (h0 : (i 0).val = b) (h1 : (i 1).val = n) :
    wAt V c b n = V c main_v54 i := by
  unfold wAt
  refine congrArg (V c main_v54) (funext fun a => Fin.ext ?_)
  have l0 : (i 0).val < 64 := (i 0).isLt
  have l1 : (i 1).val < 16384 := (i 1).isLt
  match a with
  | ⟨0, _⟩ => show b % 64 = (i 0).val; omega
  | ⟨1, _⟩ => show n % 16384 = (i 1).val; omega

theorem mAt_eq (c : Dev nD) (b n : ℕ) (r : Fin 64) (i : S64x16384x64.Idx) (h0 : (i 0).val = b) (h1 : (i 1).val = n)
    (h2 : (i 2).val = r.val) : mAt V c b n r = V c main_arg0 i := by
  unfold mAt
  refine congrArg (V c main_arg0) (funext fun a => Fin.ext ?_)
  have l0 : (i 0).val < 64 := (i 0).isLt
  have l1 : (i 1).val < 16384 := (i 1).isLt
  match a with
  | ⟨0, _⟩ => show b % 64 = (i 0).val; omega
  | ⟨1, _⟩ => show n % 16384 = (i 1).val; omega
  | ⟨2, _⟩ => show r.val = (i 2).val; omega

/-- The weight block's entry (p, d) at point t is the weight of batch 16·(t/16) + p, position 1024·(t%16) + d. -/
theorem w_blk_at (c : Dev nD) (t : Fin cfg1.N) (p : Fin 16) (d : Fin 1024) :
    iblk1 V c 1 t (ix2 p d) = wAt V c (16 * (t.val / 16) + p.val) ((t.val % 16) * 1024 + d.val) := by
  obtain ⟨e00, e01, e02, e10, e11, e20, e21, e30, e31, e40, e41, e50, e51, e52⟩ := idx_facts t
  unfold iblk1
  rw [View.read_apply]
  refine (wAt_eq V c _ _ _ ?_ ?_).symm
  · show win1_1.index t (0 : Fin 2) * 16 + 1 * p.val = _; omega
  · show win1_1.index t (1 : Fin 2) * 1024 + 1 * d.val = _; omega

/-- The memory block's entry (p, d, r) at point t, likewise. -/
theorem m_blk_at (c : Dev nD) (t : Fin cfg1.N) (p : Fin 16) (d : Fin 1024) (r : Fin 64) :
    iblk1 V c 0 t (ix3 p d r) = mAt V c (16 * (t.val / 16) + p.val) ((t.val % 16) * 1024 + d.val) r := by
  obtain ⟨e00, e01, e02, e10, e11, e20, e21, e30, e31, e40, e41, e50, e51, e52⟩ := idx_facts t
  unfold iblk1
  rw [View.read_apply]
  refine (mAt_eq V c _ _ r _ ?_ ?_ ?_).symm
  · show win1_0.index t (0 : Fin 3) * 16 + 1 * p.val = _; omega
  · show win1_0.index t (1 : Fin 3) * 1024 + 1 * d.val = _; omega
  · show win1_0.index t (2 : Fin 3) * 64 + 1 * r.val = _; omega

/-! ## The accumulator in closed form -/

/-- After point n the accumulator's entry (p, r) is the sum, over the position blocks 0 … n % 16 of the batch block
    n / 16, of the weighted memory entries of batch 16·(n/16) + p. -/
theorem acc_at (c : Dev nD) : ∀ (n : ℕ) (h : n < cfg1.N) (p : Fin 16) (r : Fin 64),
    acc V c n h (ix2 p r) = ∑ s ∈ Finset.range (n % 16 + 1), ∑ d : Fin 1024,
      wAt V c (16 * (n / 16) + p.val) (s * 1024 + d.val) * mAt V c (16 * (n / 16) + p.val) (s * 1024 + d.val) r
  | 0, h, p, r => by
    rw [acc_zero, accum_at, zero_at, zero_add]
    show _ = ∑ s ∈ Finset.range 1, _
    rw [Finset.sum_range_one]
    refine Finset.sum_congr rfl fun d _ => ?_
    rw [w_blk_at V c ⟨0, h⟩ p d, m_blk_at V c ⟨0, h⟩ p d r]
    rfl
  | n + 1, h, p, r => by
    by_cases h0 : (n + 1) % 16 = 0
    · rw [acc_first V c n h h0, accum_at, zero_at, zero_add, h0]
      show _ = ∑ s ∈ Finset.range 1, _
      rw [Finset.sum_range_one]
      refine Finset.sum_congr rfl fun d _ => ?_
      rw [w_blk_at V c ⟨n + 1, h⟩ p d, m_blk_at V c ⟨n + 1, h⟩ p d r]
      show wAt V c (16 * ((n + 1) / 16) + p.val) ((n + 1) % 16 * 1024 + d.val) * mAt V c (16 * ((n + 1) / 16) + p.val) ((n + 1) % 16 * 1024 + d.val) r = _
      rw [h0]
    · have hd : (n + 1) / 16 = n / 16 := by omega
      have hm : (n + 1) % 16 = n % 16 + 1 := by omega
      rw [acc_later V c n h h0, accum_at, acc_at c n (Nat.lt_of_succ_lt h) p r, hd, hm, Finset.sum_range_succ _ (n % 16 + 1)]
      refine congrArg (_ + ·) (Finset.sum_congr rfl fun d _ => ?_)
      rw [w_blk_at V c ⟨n + 1, h⟩ p d, m_blk_at V c ⟨n + 1, h⟩ p d r]
      show wAt V c (16 * ((n + 1) / 16) + p.val) ((n + 1) % 16 * 1024 + d.val) * mAt V c (16 * ((n + 1) / 16) + p.val) ((n + 1) % 16 * 1024 + d.val) r = _
      rw [hd, hm]

/-! ## The two results as functions of the arrays the region finds -/

/-- The read vectors: each batch's memory rows weighted and summed over its positions. -/
def readOf (W : FVec Ideal S64x16384 .f32) (M : FVec Ideal S64x16384x64 .f32) : FVec Ideal S64x64 .f32 :=
  fun i => ∑ n : Fin 16384, W (ix2 (i 0) n) * M (ix3 (i 0) n (i 1))

/-- The new memory: every entry scaled by (1 − weight · erase) + weight · add. -/
def updateOf (M : FVec Ideal S64x16384x64 .f32) (W : FVec Ideal S64x16384 .f32) (E D : FVec Ideal S64x64 .f32) :
    FVec Ideal S64x16384x64 .f32 :=
  fun i => M i * ((Ideal.ofBits .f32 0x3F800000#32 - W (ix2 (i 0) (i 1)) * E (ix2 (i 0) (i 2)))
    + W (ix2 (i 0) (i 1)) * D (ix2 (i 0) (i 2)))

/-- A sum over an extent that is n runs of b is the sum over the runs. -/
theorem sum_runs_of_eq {β : Type*} [AddCommMonoid β] (f : ℕ → β) {N : ℕ} (n b : ℕ) (hN : N = n * b) :
    ∑ k : Fin N, f k.val = ∑ s ∈ Finset.range n, ∑ d : Fin b, f (s * b + d.val) := by
  subst hN
  exact Cert.LibBlockSum.sum_fin_runs f n b

/-! ## What is written back -/

/-- After the last position block of a batch block the accumulator's entry (p, r) is the read vector's entry of batch
    16·(t/16) + p, column r: the sixteen runs of 1024 positions are the batch's 16384 positions. -/
theorem acc_last (c : Dev nD) (t : Fin cfg1.N) (h15 : t.val % 16 = 15) (p : Fin 16) (r : Fin 64) (i : S64x64.Idx)
    (hi0 : (i 0).val = 16 * (t.val / 16) + p.val) (hi1 : (i 1).val = r.val) :
    acc V c t.val t.isLt (ix2 p r) = readOf (V c main_v54) (V c main_arg0) i := by
  rw [acc_at V c t.val t.isLt p r, h15]
  unfold readOf
  have hruns := sum_runs_of_eq
    (fun k => wAt V c (16 * (t.val / 16) + p.val) k * mAt V c (16 * (t.val / 16) + p.val) k r) (N := 16384) 16 1024 (by decide)
  refine hruns.symm.trans ?_
  refine Finset.sum_congr rfl fun k _ => ?_
  exact congrArg₂ (· * ·) (wAt_eq V c _ _ (ix2 (i 0) k) hi0 rfl) (mAt_eq V c _ _ r (ix3 (i 0) k (i 1)) hi0 rfl hi1)

theorem flushed_read (c : Dev nD) (t : Fin cfg1.N) (hf : (cfg1.win 4).flush t = true) :
    (dat1 V c).flushed 4 t = ((cfg1.win 4).blk t).view.read (Elt Ideal) (readOf (V c main_v54) (V c main_arg0)) := by
  obtain ⟨e00, e01, e02, e10, e11, e20, e21, e30, e31, e40, e41, e50, e51, e52⟩ := idx_facts t
  have h15 : t.val % 16 = 15 := (flush1_4 t).mp hf
  show (cfg1.win 4).cut (grid1.coords t) ((dat1 V c).after 4 t) = _
  rw [after1_4, outsAt_eq]
  funext j
  obtain ⟨p, r, rfl⟩ : ∃ (p : Fin 16) (r : Fin 64), j = ix2 p r := ⟨j 0, j 1, eq_ix2 j⟩
  show acc V c t.val t.isLt (ix2 p r) = _
  refine (acc_last V c t h15 p r (((cfg1.win 4).blk t).view.emb (ix2 p r)) ?_ ?_).trans ?_
  · show win1_4.index t (0 : Fin 2) * 16 + 1 * p.val = _; omega
  · show win1_4.index t (1 : Fin 2) * 64 + 1 * r.val = _; omega
  · rw [View.read_apply]
    exact (cast_eq _ _).symm

theorem flushed_update (c : Dev nD) (t : Fin cfg1.N) :
    (dat1 V c).flushed 5 t = ((cfg1.win 5).blk t).view.read (Elt Ideal)
      (updateOf (V c main_arg0) (V c main_v54) (V c main_arg7) (V c main_arg8)) := by
  obtain ⟨e00, e01, e02, e10, e11, e20, e21, e30, e31, e40, e41, e50, e51, e52⟩ := idx_facts t
  show (cfg1.win 5).cut (grid1.coords t) ((dat1 V c).after 5 t) = _
  rw [after1_5, outsAt_eq]
  funext j
  obtain ⟨p, q, r, rfl⟩ : ∃ (p : Fin 16) (q : Fin 1024) (r : Fin 64), j = ix3 p q r := ⟨j 0, j 1, j 2, eq_ix3 j⟩
  refine (update_at (iblk1 V c 0 t) (iblk1 V c 1 t) (iblk1 V c 2 t) (iblk1 V c 3 t) p q r).trans ?_
  rw [View.read_apply]
  unfold updateOf
  have hm : iblk1 V c 0 t (ix3 p q r) = V c main_arg0 (((cfg1.win 5).blk t).view.emb (ix3 p q r)) := by
    unfold iblk1; rw [View.read_apply]
    refine congrArg (V c main_arg0) (funext fun a => Fin.ext ?_)
    match a with
    | ⟨0, _⟩ => show win1_0.index t (0 : Fin 3) * 16 + 1 * p.val = win1_5.index t (0 : Fin 3) * 16 + 1 * p.val; omega
    | ⟨1, _⟩ => show win1_0.index t (1 : Fin 3) * 1024 + 1 * q.val = win1_5.index t (1 : Fin 3) * 1024 + 1 * q.val; omega
    | ⟨2, _⟩ => show win1_0.index t (2 : Fin 3) * 64 + 1 * r.val = win1_5.index t (2 : Fin 3) * 64 + 1 * r.val; omega
  have hw : iblk1 V c 1 t (ix2 p q) = V c main_v54 (ix2 ((((cfg1.win 5).blk t).view.emb (ix3 p q r)) 0) ((((cfg1.win 5).blk t).view.emb (ix3 p q r)) 1)) := by
    unfold iblk1; rw [View.read_apply]
    refine congrArg (V c main_v54) (funext fun a => Fin.ext ?_)
    match a with
    | ⟨0, _⟩ => show win1_1.index t (0 : Fin 2) * 16 + 1 * p.val = win1_5.index t (0 : Fin 3) * 16 + 1 * p.val; omega
    | ⟨1, _⟩ => show win1_1.index t (1 : Fin 2) * 1024 + 1 * q.val = win1_5.index t (1 : Fin 3) * 1024 + 1 * q.val; omega
  have he : iblk1 V c 2 t (ix2 p r) = V c main_arg7 (ix2 ((((cfg1.win 5).blk t).view.emb (ix3 p q r)) 0) ((((cfg1.win 5).blk t).view.emb (ix3 p q r)) 2)) := by
    unfold iblk1; rw [View.read_apply]
    refine congrArg (V c main_arg7) (funext fun a => Fin.ext ?_)
    match a with
    | ⟨0, _⟩ => show win1_2.index t (0 : Fin 2) * 16 + 1 * p.val = win1_5.index t (0 : Fin 3) * 16 + 1 * p.val; omega
    | ⟨1, _⟩ => show win1_2.index t (1 : Fin 2) * 64 + 1 * r.val = win1_5.index t (2 : Fin 3) * 64 + 1 * r.val; omega
  have hd : iblk1 V c 3 t (ix2 p r) = V c main_arg8 (ix2 ((((cfg1.win 5).blk t).view.emb (ix3 p q r)) 0) ((((cfg1.win 5).blk t).view.emb (ix3 p q r)) 2)) := by
    unfold iblk1; rw [View.read_apply]
    refine congrArg (V c main_arg8) (funext fun a => Fin.ext ?_)
    match a with
    | ⟨0, _⟩ => show win1_3.index t (0 : Fin 2) * 16 + 1 * p.val = win1_5.index t (0 : Fin 3) * 16 + 1 * p.val; omega
    | ⟨1, _⟩ => show win1_3.index t (1 : Fin 2) * 64 + 1 * r.val = win1_5.index t (2 : Fin 3) * 64 + 1 * r.val; omega
  rw [hm, hw, he, hd]
  rfl

/-! ## The blocks cover the arrays -/

theorem mem_blk4 (t : Fin cfg1.N) (i : S64x64.Idx) :
    i ∈ ((cfg1.win 4).blk t).view.set ↔ ∀ a : Fin 2, win1_4.index t a * S16x64.size a ≤ (i a).val ∧ (i a).val < win1_4.index t a * S16x64.size a + S16x64.size a := by
  show i ∈ ((View.whole main_v55_0).slice (win1_4.rect t)).set ↔ _
  rw [View.set_slice_whole, Rect.mem_set_unit]
  exact Iff.rfl

theorem mem_blk5 (t : Fin cfg1.N) (i : S64x16384x64.Idx) :
    i ∈ ((cfg1.win 5).blk t).view.set ↔ ∀ a : Fin 3, win1_5.index t a * S16x1024x64.size a ≤ (i a).val ∧ (i a).val < win1_5.index t a * S16x1024x64.size a + S16x1024x64.size a := by
  show i ∈ ((View.whole main_v55_1).slice (win1_5.rect t)).set ↔ _
  rw [View.set_slice_whole, Rect.mem_set_unit]
  exact Iff.rfl

theorem cover4 (i : S64x64.Idx) :
    ∃ t : Fin cfg1.N, (cfg1.win 4).flush t = true ∧ i ∈ ((cfg1.win 4).blk t).view.set := by
  have hN : cfg1.N = 64 := N_1
  have hi0 : (i 0).val < 64 := (i 0).isLt
  have hi1 : (i 1).val < 64 := (i 1).isLt
  let t : Fin cfg1.N := ⟨16 * ((i 0).val / 16) + 15, by rw [hN]; omega⟩
  obtain ⟨e00, e01, e02, e10, e11, e20, e21, e30, e31, e40, e41, e50, e51, e52⟩ := idx_facts t
  have tv : t.val = 16 * ((i 0).val / 16) + 15 := rfl
  refine ⟨t, (flush1_4 t).mpr (by omega), ?_⟩
  rw [mem_blk4]
  intro a
  match a with
  | ⟨0, _⟩ => show win1_4.index t (0 : Fin 2) * 16 ≤ (i 0).val ∧ (i 0).val < win1_4.index t (0 : Fin 2) * 16 + 16; omega
  | ⟨1, _⟩ => show win1_4.index t (1 : Fin 2) * 64 ≤ (i 1).val ∧ (i 1).val < win1_4.index t (1 : Fin 2) * 64 + 64; omega

theorem cover5 (i : S64x16384x64.Idx) :
    ∃ t : Fin cfg1.N, (cfg1.win 5).flush t = true ∧ i ∈ ((cfg1.win 5).blk t).view.set := by
  have hN : cfg1.N = 64 := N_1
  have hi0 : (i 0).val < 64 := (i 0).isLt
  have hi1 : (i 1).val < 16384 := (i 1).isLt
  have hi2 : (i 2).val < 64 := (i 2).isLt
  let t : Fin cfg1.N := ⟨16 * ((i 0).val / 16) + (i 1).val / 1024, by rw [hN]; omega⟩
  obtain ⟨e00, e01, e02, e10, e11, e20, e21, e30, e31, e40, e41, e50, e51, e52⟩ := idx_facts t
  have tv : t.val = 16 * ((i 0).val / 16) + (i 1).val / 1024 := rfl
  refine ⟨t, flush1_5 t, ?_⟩
  rw [mem_blk5]
  intro a
  match a with
  | ⟨0, _⟩ => show win1_5.index t (0 : Fin 3) * 16 ≤ (i 0).val ∧ (i 0).val < win1_5.index t (0 : Fin 3) * 16 + 16; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 64 ≤ (i 2).val ∧ (i 2).val < win1_5.index t (2 : Fin 3) * 64 + 64; omega

/-! ## The two arrays after the region -/

theorem final_read (c : Dev nD) :
    (dat1 V c).arrAt 4 cfg1.N = readOf (V c main_v54) (V c main_arg0) :=
  (dat1 V c).arrAt_eq_of_cover 4 (readOf (V c main_v54) (V c main_arg0)) (fun t hf => flushed_read V c t hf) cover4

theorem final_update (c : Dev nD) :
    (dat1 V c).arrAt 5 cfg1.N = updateOf (V c main_arg0) (V c main_v54) (V c main_arg7) (V c main_arg8) :=
  (dat1 V c).arrAt_eq_of_cover 5 (updateOf (V c main_arg0) (V c main_v54) (V c main_arg7) (V c main_arg8))
    (fun t _ => flushed_update V c t) cover5

end Cert.KernelIdeal.Region1

end
-- ==== Proof.LibHostRows.lean ====
/-
  Row-wise host operations read at one entry, over the extended reals, for any extents: the host's sum of an [a, b]
  array over its second coordinate at row p is the initial value plus the sum of the row's b entries; a vector of row
  values written as a one-column matrix by broadcast_in_dim along axis 0, and a one-column matrix spread over b columns by
  broadcast_in_dim along both axes, read the row's value; a rank-zero constant spread over any shape reads its one entry.
-/
import Idealize.ShloMosaic.Lib.Pipeline.Value
import Idealize.ShloMosaic.Lib.ValueIdx
import Idealize.ShloMosaic.PureOps.Ideal.Laws

open scoped BigOperators

noncomputable section

namespace Cert.LibHostRows

open Idealize.ShloMosaic Idealize.ShloMosaic.ValueIdx

/-- A row's sum on the host: the add-reduce of an [a, b] array over its columns reads, at row p, the initial value's one
    entry plus the sum of the row's b entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  refine (Ideal.hostReduceAdd_single h' h x (init (Shape.Idx.first hu)) (ix1 p)).trans ?_
  show init (Shape.Idx.first hu) + ∑ k : Fin b, x (h.lift (ix1 p) k) = _
  refine congrArg (init (Shape.Idx.first hu) + ·) (Finset.sum_congr rfl fun k _ => congrArg x ?_)
  funext d; apply Fin.ext
  match d with
  | ⟨0, _⟩ => rfl
  | ⟨1, _⟩ => rfl

variable {α : Type}

/-- A vector of a row values placed along axis 0 of [a, 1] reads, at (p, u), the value of row p. -/
theorem colOfVec_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A one-column matrix [a, 1] spread over b columns (axes kept in place) reads, at (p, c), its row p. -/
theorem spreadCol_apply {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) :=
  broadcastInDim_apply ![0, 1] h w (ix2 p c) (ix2 p (0 : Fin 1)) fun ax => by
    match ax with
    | ⟨0, _⟩ =>
      show p.val = if a = 1 then 0 else p.val
      split
      · have := p.isLt; omega
      · rfl
    | ⟨1, _⟩ => rfl

/-- A rank-zero array spread over any shape reads its one entry everywhere. -/
theorem spreadScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibHostRows

end
-- ==== Proof.HostChain.lean ====
/-
  The kernel's host operations between its two regions, tied to the reference's stages.

  Between the regions the kernel's @main applies to the row dots, the row squares and the arguments the same
  sixty-odd host operations the reference applies (cosine similarity, softmax, interpolation, the three circular shifts,
  sharpening, normalisation), in seven stretches. Each stage of the reference is a function of the arguments
  (`val_main_vN`); the kernel's buffers are shown to hold those same functions stretch by stretch: if the buffers a
  stretch reads hold their stages when it is entered, the buffers it leaves for later hold theirs when it is left. So
  nothing of the chain is opened beyond one stretch at a time, and the weights' buffer ends at the reference's weights.

  Three identifications go in at the start. The first region's row dots ∑ₖ M(b,n,k)·K(b,k) are the reference's
  sum of M · (K repeated over the positions) from zero, since 0 + x = x; its row squares likewise; and the kernel's key
  norm, the square root of (row sums of K·K placed in a column), is the reference's square root of the sums over the
  last axis of K given a unit middle axis, the same entries summed.
-/
import proofs.«145907_j54546084660145_2_alg».proof.Proof.Gen.KernelIdeal.Frame
import proofs.«145907_j54546084660145_2_alg».proof.Proof.RefRead
import proofs.«145907_j54546084660145_2_alg».proof.Proof.Region0
import proofs.«145907_j54546084660145_2_alg».proof.Proof.LibHostRows

set_option maxRecDepth 65536

open scoped BigOperators

noncomputable section

namespace Cert.KernelIdeal.HostChain

open Cert.KernelIdeal Cert.KernelIdeal.Gen Cert.ReferenceIdeal.Stages
open Idealize.ShloMosaic Idealize.ShloMosaic.TcCoe Idealize.SL.Sem Idealize.ShloMosaic.StableHlo Idealize.ShloMosaic.ValueIdx

/-! ## The three identifications -/

theorem rowDots_eq (x0 : FVec Ideal S64x16384x64 .f32) (x1 : FVec Ideal S64x64 .f32) :
    Cert.KernelIdeal.Region0.rowDots x0 x1 = val_main_v3 (F := Ideal) x0 x1 := by
  funext i
  obtain ⟨b, n, rfl⟩ : ∃ (b : Fin 64) (n : Fin 16384), i = ix2 b n := ⟨i 0, i 1, eq_ix2 i⟩
  rw [val_main_v3_apply]
  show ∑ k : Fin 64, x0 (ix3 b n k) * x1 (ix2 b k) = _
  rw [show (val_main_cst (F := Ideal)) (Shape.Idx.first Cert.ReferenceIdeal.Gen.h_S_) = 0 from Ideal.ofBits_zero_f32, zero_add]
  refine Finset.sum_congr rfl fun k _ => ?_
  rw [val_main_v2_apply, val_main_v1_apply, val_main_v0_apply]
  have e0 : idx_main_v3 (ix2 b n) k = ix3 b n k :=
    funext fun a => Fin.ext (by match a with | ⟨0, _⟩ => rfl | ⟨1, _⟩ => rfl | ⟨2, _⟩ => rfl)
  have e1 : idx_main_v0 (idx_main_v1 (ix3 b n k)) = ix2 b k :=
    funext fun a => Fin.ext (by match a with | ⟨0, _⟩ => rfl | ⟨1, _⟩ => rfl)
  rw [e0, e1]
  rfl

theorem rowSquares_eq (x0 : FVec Ideal S64x16384x64 .f32) :
    Cert.KernelIdeal.Region0.rowSquares x0 = val_main_call0_v1 (F := Ideal) x0 := by
  funext i
  obtain ⟨b, n, rfl⟩ : ∃ (b : Fin 64) (n : Fin 16384), i = ix2 b n := ⟨i 0, i 1, eq_ix2 i⟩
  rw [val_main_call0_v1_apply]
  show ∑ k : Fin 64, x0 (ix3 b n k) * x0 (ix3 b n k) = _
  rw [show (val_main_call0_cst (F := Ideal)) (Shape.Idx.first Cert.ReferenceIdeal.Gen.h_S_) = 0 from Ideal.ofBits_zero_f32, zero_add]
  refine Finset.sum_congr rfl fun k _ => ?_
  rw [val_main_call0_v0_apply]
  have e0 : idx_main_call0_v1 (ix2 b n) k = ix3 b n k :=
    funext fun a => Fin.ext (by match a with | ⟨0, _⟩ => rfl | ⟨1, _⟩ => rfl | ⟨2, _⟩ => rfl)
  rw [e0]
  rfl

theorem keyNorm_eq (x1 : FVec Ideal S64x64 .f32) :
    Host.sqrt (broadcastInDim S64x1 ![0] bcast_S64_S64x1_0
        (Host.reduceAdd (mulf x1 x1) (constant S_ .f32 0x00000000#32) reducesTo_S64x64_S64_d1 h_S_))
      = val_main_v5 (F := Ideal) x1 := by
  unfold val_main_v5
  refine congrArg Host.sqrt ?_
  funext i
  obtain ⟨p, u, rfl⟩ : ∃ (p : Fin 64) (u : Fin 1), i = ix2 p u := ⟨i 0, i 1, eq_ix2 i⟩
  refine (Cert.LibHostRows.colOfVec_apply (a := 64) _ bcast_S64_S64x1_0 p u).trans ?_
  refine (Cert.LibHostRows.hostRowSum_apply (a := 64) (b := 64) (mulf x1 x1) (constant S_ .f32 0x00000000#32)
    reducesTo_S64x64_S64_d1 (by decide) h_S_ p).trans ?_
  rw [val_main_call1_v1_apply]
  refine congrArg₂ (· + ·) rfl (Finset.sum_congr rfl fun k _ => ?_)
  rw [val_main_call1_v0_apply, val_main_v0_apply, mulf_apply]
  have e : idx_main_v0 (idx_main_call1_v1 (ix2 p u) k) = ix2 p k :=
    funext fun a => Fin.ext (by match a with | ⟨0, _⟩ => rfl | ⟨1, _⟩ => rfl)
  rw [e]
  rfl

/-! ## The three circular shifts

A shift is two slices of the gated weights joined along the positions. Its three operations are folded directly, for any
array y the weights' buffer holds. -/

theorem shift_back_fold (X : Valuation τ sig (Elt Ideal)) (y : FVec Ideal S64x16384 .f32)
    (h : X (Proc.devRef .tc main_v30) = y) :
    after (hostOps1_1 (F := Ideal)) X (Proc.devRef .tc main_v32)
      = concatenate S64x16384 1 [⟨S64x1, extractStridedSlice S64x1 ![0, 16383] y slices_S64x16384_S64x1_0_16383⟩,
          ⟨S64x16383, extractStridedSlice S64x16383 ![0, 0] y slices_S64x16384_S64x16383_0_0⟩]
          concatenates_S64x1_S64x16383_S64x16384_d1 := by
  subst h
  rfl

theorem shift_none_fold (X : Valuation τ sig (Elt Ideal)) (y : FVec Ideal S64x16384 .f32)
    (h : X (Proc.devRef .tc main_v30) = y) :
    after (hostOps1_3 (F := Ideal)) X (Proc.devRef .tc main_v38)
      = concatenate S64x16384 1 [⟨S64x16384, extractStridedSlice S64x16384 ![0, 0] y slices_S64x16384_S64x16384_0_0⟩,
          ⟨S64x0, extractStridedSlice S64x0 ![0, 0] y slices_S64x16384_S64x0_0_0⟩]
          concatenates_S64x16384_S64x0_S64x16384_d1 := by
  subst h
  rfl

theorem shift_forward_fold (X : Valuation τ sig (Elt Ideal)) (y : FVec Ideal S64x16384 .f32)
    (h : X (Proc.devRef .tc main_v30) = y) :
    after (hostOps1_5 (F := Ideal)) X (Proc.devRef .tc main_v43)
      = concatenate S64x16384 1 [⟨S64x16383, extractStridedSlice S64x16383 ![0, 1] y slices_S64x16384_S64x16383_0_1⟩,
          ⟨S64x1, extractStridedSlice S64x1 ![0, 0] y slices_S64x16384_S64x1_0_0⟩]
          concatenates_S64x16383_S64x1_S64x16384_d1 := by
  subst h
  rfl

/-! ## The seven stretches -/

/-- The first stretch: cosine similarity, the softmax over the positions and the interpolation with the previous weights leave the gated weights and the first shift coefficient. -/
theorem similarity_to_gate (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32)
    (h_v0_0 : X (Proc.devRef .tc main_v0_0) = val_main_v3 (F := Ideal) x0 x1)
    (h_v0_1 : X (Proc.devRef .tc main_v0_1) = val_main_call0_v1 (F := Ideal) x0)
    (h_arg1 : X (Proc.devRef .tc main_arg1) = x1)
    (h_arg2 : X (Proc.devRef .tc main_arg2) = x2)
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6) :
    after (hostOps1 (F := Ideal)) X (Proc.devRef .tc main_v30) = val_main_v30 (F := Ideal) x0 x1 x2 x3 x6
      ∧ after (hostOps1 (F := Ideal)) X (Proc.devRef .tc main_v31) = val_main_v31 (F := Ideal) x4
      ∧ after (hostOps1 (F := Ideal)) X (Proc.devRef .tc main_arg4) = x4
      ∧ after (hostOps1 (F := Ideal)) X (Proc.devRef .tc main_arg5) = x5 :=
  ⟨by
    after_results_simp
    simp only [h_v0_0, h_v0_1, h_arg1, h_arg2, h_arg3, h_arg4, h_arg5, h_arg6, keyNorm_eq x1]
    rfl,
   by
    after_results_simp
    simp only [h_v0_0, h_v0_1, h_arg1, h_arg2, h_arg3, h_arg4, h_arg5, h_arg6, keyNorm_eq x1]
    rfl,
   by
    after_results_simp
    exact h_arg4,
   by
    after_results_simp
    exact h_arg5⟩

/-- The gated weights rolled by one position towards the end. -/
theorem shift_back (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32)
    (h_v30 : X (Proc.devRef .tc main_v30) = val_main_v30 (F := Ideal) x0 x1 x2 x3 x6)
    (h_v31 : X (Proc.devRef .tc main_v31) = val_main_v31 (F := Ideal) x4)
    (h_arg4 : X (Proc.devRef .tc main_arg4) = x4)
    (h_arg5 : X (Proc.devRef .tc main_arg5) = x5) :
    after (hostOps1_1 (F := Ideal)) X (Proc.devRef .tc main_v30) = val_main_v30 (F := Ideal) x0 x1 x2 x3 x6
      ∧ after (hostOps1_1 (F := Ideal)) X (Proc.devRef .tc main_v31) = val_main_v31 (F := Ideal) x4
      ∧ after (hostOps1_1 (F := Ideal)) X (Proc.devRef .tc main_v32) = val_main_v32 (F := Ideal) x0 x1 x2 x3 x6
      ∧ after (hostOps1_1 (F := Ideal)) X (Proc.devRef .tc main_arg4) = x4
      ∧ after (hostOps1_1 (F := Ideal)) X (Proc.devRef .tc main_arg5) = x5 :=
  ⟨by
    simp only [hostOps1_1, TRef.unary, TRef.binary, TRef.nullary, TRef.toBuf, TRef.ofBuf, cast_eq]
    after_results_simp
    exact h_v30,
   by
    simp only [hostOps1_1, TRef.unary, TRef.binary, TRef.nullary, TRef.toBuf, TRef.ofBuf, cast_eq]
    after_results_simp
    exact h_v31,
   (shift_back_fold X _ h_v30).trans rfl,
   by
    simp only [hostOps1_1, TRef.unary, TRef.binary, TRef.nullary, TRef.toBuf, TRef.ofBuf, cast_eq]
    after_results_simp
    exact h_arg4,
   by
    simp only [hostOps1_1, TRef.unary, TRef.binary, TRef.nullary, TRef.toBuf, TRef.ofBuf, cast_eq]
    after_results_simp
    exact h_arg5⟩

/-- The first shift term, and the second coefficient. -/
theorem first_term (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32)
    (h_v30 : X (Proc.devRef .tc main_v30) = val_main_v30 (F := Ideal) x0 x1 x2 x3 x6)
    (h_v31 : X (Proc.devRef .tc main_v31) = val_main_v31 (F := Ideal) x4)
    (h_v32 : X (Proc.devRef .tc main_v32) = val_main_v32 (F := Ideal) x0 x1 x2 x3 x6)
    (h_arg4 : X (Proc.devRef .tc main_arg4) = x4)
    (h_arg5 : X (Proc.devRef .tc main_arg5) = x5) :
    after (hostOps1_2 (F := Ideal)) X (Proc.devRef .tc main_v30) = val_main_v30 (F := Ideal) x0 x1 x2 x3 x6
      ∧ after (hostOps1_2 (F := Ideal)) X (Proc.devRef .tc main_v36) = val_main_v36 (F := Ideal) x0 x1 x2 x3 x4 x6
      ∧ after (hostOps1_2 (F := Ideal)) X (Proc.devRef .tc main_v37) = val_main_v37 (F := Ideal) x4
      ∧ after (hostOps1_2 (F := Ideal)) X (Proc.devRef .tc main_arg4) = x4
      ∧ after (hostOps1_2 (F := Ideal)) X (Proc.devRef .tc main_arg5) = x5 :=
  ⟨by
    after_results_simp
    exact h_v30,
   by
    after_results_simp
    simp only [h_v30, h_v31, h_v32, h_arg4, h_arg5]
    rfl,
   by
    after_results_simp
    simp only [h_v30, h_v31, h_v32, h_arg4, h_arg5]
    rfl,
   by
    after_results_simp
    exact h_arg4,
   by
    after_results_simp
    exact h_arg5⟩

/-- The gated weights not rolled (all of them, then none). -/
theorem shift_none (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32)
    (h_v30 : X (Proc.devRef .tc main_v30) = val_main_v30 (F := Ideal) x0 x1 x2 x3 x6)
    (h_v36 : X (Proc.devRef .tc main_v36) = val_main_v36 (F := Ideal) x0 x1 x2 x3 x4 x6)
    (h_v37 : X (Proc.devRef .tc main_v37) = val_main_v37 (F := Ideal) x4)
    (h_arg4 : X (Proc.devRef .tc main_arg4) = x4)
    (h_arg5 : X (Proc.devRef .tc main_arg5) = x5) :
    after (hostOps1_3 (F := Ideal)) X (Proc.devRef .tc main_v30) = val_main_v30 (F := Ideal) x0 x1 x2 x3 x6
      ∧ after (hostOps1_3 (F := Ideal)) X (Proc.devRef .tc main_v36) = val_main_v36 (F := Ideal) x0 x1 x2 x3 x4 x6
      ∧ after (hostOps1_3 (F := Ideal)) X (Proc.devRef .tc main_v37) = val_main_v37 (F := Ideal) x4
      ∧ after (hostOps1_3 (F := Ideal)) X (Proc.devRef .tc main_v38) = val_main_v38 (F := Ideal) x0 x1 x2 x3 x6
      ∧ after (hostOps1_3 (F := Ideal)) X (Proc.devRef .tc main_arg4) = x4
      ∧ after (hostOps1_3 (F := Ideal)) X (Proc.devRef .tc main_arg5) = x5 :=
  ⟨by
    simp only [hostOps1_3, TRef.unary, TRef.binary, TRef.nullary, TRef.toBuf, TRef.ofBuf, cast_eq]
    after_results_simp
    exact h_v30,
   by
    simp only [hostOps1_3, TRef.unary, TRef.binary, TRef.nullary, TRef.toBuf, TRef.ofBuf, cast_eq]
    after_results_simp
    exact h_v36,
   by
    simp only [hostOps1_3, TRef.unary, TRef.binary, TRef.nullary, TRef.toBuf, TRef.ofBuf, cast_eq]
    after_results_simp
    exact h_v37,
   (shift_none_fold X _ h_v30).trans rfl,
   by
    simp only [hostOps1_3, TRef.unary, TRef.binary, TRef.nullary, TRef.toBuf, TRef.ofBuf, cast_eq]
    after_results_simp
    exact h_arg4,
   by
    simp only [hostOps1_3, TRef.unary, TRef.binary, TRef.nullary, TRef.toBuf, TRef.ofBuf, cast_eq]
    after_results_simp
    exact h_arg5⟩

/-- The second shift term added, and the third coefficient. -/
theorem second_term (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32)
    (h_v30 : X (Proc.devRef .tc main_v30) = val_main_v30 (F := Ideal) x0 x1 x2 x3 x6)
    (h_v36 : X (Proc.devRef .tc main_v36) = val_main_v36 (F := Ideal) x0 x1 x2 x3 x4 x6)
    (h_v37 : X (Proc.devRef .tc main_v37) = val_main_v37 (F := Ideal) x4)
    (h_v38 : X (Proc.devRef .tc main_v38) = val_main_v38 (F := Ideal) x0 x1 x2 x3 x6)
    (h_arg4 : X (Proc.devRef .tc main_arg4) = x4)
    (h_arg5 : X (Proc.devRef .tc main_arg5) = x5) :
    after (hostOps1_4 (F := Ideal)) X (Proc.devRef .tc main_v30) = val_main_v30 (F := Ideal) x0 x1 x2 x3 x6
      ∧ after (hostOps1_4 (F := Ideal)) X (Proc.devRef .tc main_v41) = val_main_v41 (F := Ideal) x0 x1 x2 x3 x4 x6
      ∧ after (hostOps1_4 (F := Ideal)) X (Proc.devRef .tc main_v42) = val_main_v42 (F := Ideal) x4
      ∧ after (hostOps1_4 (F := Ideal)) X (Proc.devRef .tc main_arg5) = x5 :=
  ⟨by
    after_results_simp
    exact h_v30,
   by
    after_results_simp
    simp only [h_v30, h_v36, h_v37, h_v38, h_arg4, h_arg5]
    rfl,
   by
    after_results_simp
    simp only [h_v30, h_v36, h_v37, h_v38, h_arg4, h_arg5]
    rfl,
   by
    after_results_simp
    exact h_arg5⟩

/-- The gated weights rolled by one position towards the start. -/
theorem shift_forward (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32)
    (h_v30 : X (Proc.devRef .tc main_v30) = val_main_v30 (F := Ideal) x0 x1 x2 x3 x6)
    (h_v41 : X (Proc.devRef .tc main_v41) = val_main_v41 (F := Ideal) x0 x1 x2 x3 x4 x6)
    (h_v42 : X (Proc.devRef .tc main_v42) = val_main_v42 (F := Ideal) x4)
    (h_arg5 : X (Proc.devRef .tc main_arg5) = x5) :
    after (hostOps1_5 (F := Ideal)) X (Proc.devRef .tc main_v41) = val_main_v41 (F := Ideal) x0 x1 x2 x3 x4 x6
      ∧ after (hostOps1_5 (F := Ideal)) X (Proc.devRef .tc main_v42) = val_main_v42 (F := Ideal) x4
      ∧ after (hostOps1_5 (F := Ideal)) X (Proc.devRef .tc main_v43) = val_main_v43 (F := Ideal) x0 x1 x2 x3 x6
      ∧ after (hostOps1_5 (F := Ideal)) X (Proc.devRef .tc main_arg5) = x5 :=
  ⟨by
    simp only [hostOps1_5, TRef.unary, TRef.binary, TRef.nullary, TRef.toBuf, TRef.ofBuf, cast_eq]
    after_results_simp
    exact h_v41,
   by
    simp only [hostOps1_5, TRef.unary, TRef.binary, TRef.nullary, TRef.toBuf, TRef.ofBuf, cast_eq]
    after_results_simp
    exact h_v42,
   (shift_forward_fold X _ h_v30).trans rfl,
   by
    simp only [hostOps1_5, TRef.unary, TRef.binary, TRef.nullary, TRef.toBuf, TRef.ofBuf, cast_eq]
    after_results_simp
    exact h_arg5⟩

/-- The third shift term added, the power by the sharpening exponent, and the normalisation: the weights. -/
theorem sharpen (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32)
    (h_v41 : X (Proc.devRef .tc main_v41) = val_main_v41 (F := Ideal) x0 x1 x2 x3 x4 x6)
    (h_v42 : X (Proc.devRef .tc main_v42) = val_main_v42 (F := Ideal) x4)
    (h_v43 : X (Proc.devRef .tc main_v43) = val_main_v43 (F := Ideal) x0 x1 x2 x3 x6)
    (h_arg5 : X (Proc.devRef .tc main_arg5) = x5) :
    after (hostOps1_6 (F := Ideal)) X (Proc.devRef .tc main_v54) = val_main_v54 (F := Ideal) x0 x1 x2 x3 x4 x5 x6 :=
  by
    after_results_simp
    simp only [h_v41, h_v42, h_v43, h_arg5]
    rfl

/-! ## The weights the second region finds -/

variable (m : (ℓ : Loc nD τ sig) → Buf (Elt Ideal) ℓ) (ρ : Dev nD → PrngReg)

/-- With the row dots, the row squares and the arguments at the first region's exit as the reference's stages take them,
    the weights' buffer holds the reference's weights when the second region is entered. -/
theorem weights_eq (c : Dev nD) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32)
    (h_v0_0 : W1 m ρ c (Proc.devRef .tc main_v0_0) = val_main_v3 (F := Ideal) x0 x1)
    (h_v0_1 : W1 m ρ c (Proc.devRef .tc main_v0_1) = val_main_call0_v1 (F := Ideal) x0)
    (h_arg1 : W1 m ρ c (Proc.devRef .tc main_arg1) = x1) (h_arg2 : W1 m ρ c (Proc.devRef .tc main_arg2) = x2)
    (h_arg3 : W1 m ρ c (Proc.devRef .tc main_arg3) = x3) (h_arg4 : W1 m ρ c (Proc.devRef .tc main_arg4) = x4)
    (h_arg5 : W1 m ρ c (Proc.devRef .tc main_arg5) = x5) (h_arg6 : W1 m ρ c (Proc.devRef .tc main_arg6) = x6) :
    W8 m ρ c (Proc.devRef .tc main_v54) = val_main_v54 (F := Ideal) x0 x1 x2 x3 x4 x5 x6 := by
  obtain ⟨a30, a31, a4, a5⟩ := similarity_to_gate (W1 m ρ c) x0 x1 x2 x3 x4 x5 x6 h_v0_0 h_v0_1 h_arg1 h_arg2 h_arg3 h_arg4 h_arg5 h_arg6
  obtain ⟨b30, b31, b32, b4, b5⟩ := shift_back (W2 m ρ c) x0 x1 x2 x3 x4 x5 x6 a30 a31 a4 a5
  obtain ⟨c30, c36, c37, c4, c5⟩ := first_term (W3 m ρ c) x0 x1 x2 x3 x4 x5 x6 b30 b31 b32 b4 b5
  obtain ⟨d30, d36, d37, d38, d4, d5⟩ := shift_none (W4 m ρ c) x0 x1 x2 x3 x4 x5 x6 c30 c36 c37 c4 c5
  obtain ⟨e30, e41, e42, e5⟩ := second_term (W5 m ρ c) x0 x1 x2 x3 x4 x5 x6 d30 d36 d37 d38 d4 d5
  obtain ⟨f41, f42, f43, f5⟩ := shift_forward (W6 m ρ c) x0 x1 x2 x3 x4 x5 x6 e30 e41 e42 e5
  exact sharpen (W7 m ρ c) x0 x1 x2 x3 x4 x5 x6 f41 f42 f43 f5

end Cert.KernelIdeal.HostChain

end
-- ==== Proof.KernelValue.lean ====
/-
  The idealized kernel's three results as functions of its argument arrays.

  Read through the segments of @main: the first region leaves the row dots and the row squares of the memory against the
  key; the host stretches turn them, with the arguments, into the reference's weights W (the weights' buffer holds the
  reference's stage of the kernel's own arguments); the second region finds the memory, W and the erase and add rows as
  launched or as just computed, and leaves the read vectors ∑ₙ W(b,n)·M(b,n,r) and the new memory
  M·((1 − W·E) + W·D). The argument arrays are read by the regions through input windows, which write nothing back.
-/
import proofs.«145907_j54546084660145_2_alg».proof.Proof.KernelRun
import proofs.«145907_j54546084660145_2_alg».proof.Proof.Region0
import proofs.«145907_j54546084660145_2_alg».proof.Proof.Region1
import proofs.«145907_j54546084660145_2_alg».proof.Proof.HostChain

noncomputable section

namespace Cert.KernelIdeal.Value

open Cert.KernelIdeal Cert.KernelIdeal.Gen Cert.ReferenceIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments at the first region's exit -/

theorem not_window0 (b : Ref sig .tc) (h : b ≠ main_arg0 ∧ b ≠ main_arg1 ∧ b ≠ main_v0_0 ∧ b ≠ main_v0_1) :
    ∀ w, Pipeline.arrRef spec0 w ≠ b := fun w => by
  match w with
  | ⟨0, _⟩ => exact fun e => h.1 e.symm
  | ⟨1, _⟩ => exact fun e => h.2.1 e.symm
  | ⟨2, _⟩ => exact fun e => h.2.2.1 e.symm
  | ⟨3, _⟩ => exact fun e => h.2.2.2 e.symm

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_arg2 (c : Dev nD) : W1 m ρ c (Proc.devRef .tc main_arg2) = m ((c : Thread nD τ).loc main_arg2) :=
  W1_of_ne m ρ c main_arg2 (not_window0 _ (by decide))
theorem W1_arg3 (c : Dev nD) : W1 m ρ c (Proc.devRef .tc main_arg3) = m ((c : Thread nD τ).loc main_arg3) :=
  W1_of_ne m ρ c main_arg3 (not_window0 _ (by decide))
theorem W1_arg4 (c : Dev nD) : W1 m ρ c (Proc.devRef .tc main_arg4) = m ((c : Thread nD τ).loc main_arg4) :=
  W1_of_ne m ρ c main_arg4 (not_window0 _ (by decide))
theorem W1_arg5 (c : Dev nD) : W1 m ρ c (Proc.devRef .tc main_arg5) = m ((c : Thread nD τ).loc main_arg5) :=
  W1_of_ne m ρ c main_arg5 (not_window0 _ (by decide))
theorem W1_arg6 (c : Dev nD) : W1 m ρ c (Proc.devRef .tc main_arg6) = m ((c : Thread nD τ).loc main_arg6) :=
  W1_of_ne m ρ c main_arg6 (not_window0 _ (by decide))

/-- The row dots, as the reference's stage of the memory and the key. -/
theorem W1_dots (c : Dev nD) :
    W1 m ρ c (Proc.devRef .tc main_v0_0) = val_main_v3 (F := Ideal) (m ((c : Thread nD τ).loc main_arg0)) (m ((c : Thread nD τ).loc main_arg1)) :=
  (W1_arr m ρ c 2).trans ((Cert.KernelIdeal.Region0.final_dots (V0 m ρ) c).trans
    (Cert.KernelIdeal.HostChain.rowDots_eq _ _))

/-- The row squares, as the reference's stage of the memory. -/
theorem W1_squares (c : Dev nD) :
    W1 m ρ c (Proc.devRef .tc main_v0_1) = val_main_call0_v1 (F := Ideal) (m ((c : Thread nD τ).loc main_arg0)) :=
  (W1_arr m ρ c 3).trans ((Cert.KernelIdeal.Region0.final_squares (V0 m ρ) c).trans
    (Cert.KernelIdeal.HostChain.rowSquares_eq _))

/-! ## What the second region finds -/

/-- The weights' buffer at the second region's entry holds the reference's weights of the kernel's arguments. -/
theorem W8_weights (c : Dev nD) :
    W8 m ρ c (Proc.devRef .tc main_v54) = (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  Cert.KernelIdeal.HostChain.weights_eq m ρ c _ _ _ _ _ _ _ (W1_dots m ρ c) (W1_squares m ρ c)
    (W1_arg1 m ρ c) (W1_arg2 m ρ c) (W1_arg3 m ρ c) (W1_arg4 m ρ c) (W1_arg5 m ρ c) (W1_arg6 m ρ c)

theorem W8_arg0 (c : Dev nD) : W8 m ρ c (Proc.devRef .tc main_arg0) = m ((c : Thread nD τ).loc main_arg0) :=
  (((W9_arr m ρ c 0).trans (((dat1 (V8 m ρ) c).arrAt_in 0 rfl _).trans (A_eq1 (V8 m ρ) c 0))).symm).trans (W9_main_arg0 m ρ c)
theorem W8_arg7 (c : Dev nD) : W8 m ρ c (Proc.devRef .tc main_arg7) = m ((c : Thread nD τ).loc main_arg7) :=
  (((W9_arr m ρ c 2).trans (((dat1 (V8 m ρ) c).arrAt_in 2 rfl _).trans (A_eq1 (V8 m ρ) c 2))).symm).trans (W9_main_arg7 m ρ c)
theorem W8_arg8 (c : Dev nD) : W8 m ρ c (Proc.devRef .tc main_arg8) = m ((c : Thread nD τ).loc main_arg8) :=
  (((W9_arr m ρ c 3).trans (((dat1 (V8 m ρ) c).arrAt_in 3 rfl _).trans (A_eq1 (V8 m ρ) c 3))).symm).trans (W9_main_arg8 m ρ c)

/-! ## The three results -/

theorem weights_result (c : Dev nD) :
    W9 m ρ c (Proc.devRef .tc main_v54) = (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  ((W9_arr m ρ c 1).trans (((dat1 (V8 m ρ) c).arrAt_in 1 rfl _).trans (A_eq1 (V8 m ρ) c 1))).trans (W8_weights m ρ c)

theorem read_result (c : Dev nD) :
    W9 m ρ c (Proc.devRef .tc main_v55_0) = Cert.KernelIdeal.Region1.readOf (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0)) := by
  refine (W9_arr m ρ c 4).trans ((Cert.KernelIdeal.Region1.final_read (V8 m ρ) c).trans ?_)
  show Cert.KernelIdeal.Region1.readOf (W8 m ρ c (Proc.devRef .tc main_v54)) (W8 m ρ c (Proc.devRef .tc main_arg0)) = _
  rw [W8_weights m ρ c, W8_arg0 m ρ c]

theorem update_result (c : Dev nD) :
    W9 m ρ c (Proc.devRef .tc main_v55_1)
      = Cert.KernelIdeal.Region1.updateOf (m ((c : Thread nD τ).loc main_arg0)) (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) := by
  refine (W9_arr m ρ c 5).trans ((Cert.KernelIdeal.Region1.final_update (V8 m ρ) c).trans ?_)
  show Cert.KernelIdeal.Region1.updateOf (W8 m ρ c (Proc.devRef .tc main_arg0)) (W8 m ρ c (Proc.devRef .tc main_v54))
    (W8 m ρ c (Proc.devRef .tc main_arg7)) (W8 m ρ c (Proc.devRef .tc main_arg8)) = _
  rw [W8_weights m ρ c, W8_arg0 m ρ c, W8_arg7 m ρ c, W8_arg8 m ρ c]

/-- The kernel's run with its results in closed form. -/
theorem run : θ_run defs (onTc (τ := τ) (main (F := Ideal))) ⟨m, fun _ => 0, ρ⟩ (fun r => ∀ c : Dev nD,
      r.2.mem ((c.tc : Thread nD τ).loc main_v55_0) = Cert.KernelIdeal.Region1.readOf (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0))
      ∧ r.2.mem ((c.tc : Thread nD τ).loc main_v55_1)
          = Cert.KernelIdeal.Region1.updateOf (m ((c : Thread nD τ).loc main_arg0)) (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))
      ∧ r.2.mem ((c.tc : Thread nD τ).loc main_v54) = (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c).1.trans (read_result m ρ c), (h c).2.1.trans (update_result m ρ c), (h c).2.2.1.trans (weights_result m ρ c),
      (h c).2.2.2⟩)
    (Cert.KernelIdeal.RunRead.run_read (F := Ideal) m ρ)

end Cert.KernelIdeal.Value

end
-- ==== Proof.RefRun.lean ====
/-
  The reference's run, its three results as its stages of the arguments.

  @main is a straight line of 94 host operations; every weakly fair execution ends with each buffer at the fold of the
  operations' results over the launch contents. The fold is taken in eight consecutive stretches (cut around the three
  circular shifts, whose joined slices are folded directly, and before the two array results): if the buffers a stretch
  reads hold their stages of the arguments when it is entered, the buffers it leaves for later hold theirs. So the
  weights, the read vectors and the new memory end at the stages `val_main_v54`, `val_main_v57`, `val_main_v71` of the
  launch arrays, and no operation writes an argument.
-/
import proofs.«145907_j54546084660145_2_alg».proof.Proof.RefOps
import proofs.«145907_j54546084660145_2_alg».proof.Proof.RefRead

set_option maxRecDepth 65536

noncomputable section

namespace Cert.ReferenceIdeal.RefRun

open Cert.ReferenceIdeal Cert.ReferenceIdeal.Gen Cert.ReferenceIdeal.Ops Cert.ReferenceIdeal.Stages
open Idealize.ShloMosaic Idealize.ShloMosaic.TcCoe Idealize.SL.Sem Idealize.ShloMosaic.StableHlo

/-- A list of operations run after another folds after it. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | _ :: l, l₂, V => after_append l l₂ _

/-! ## The three circular shifts -/

theorem shift_back_fold (X : Valuation τ sig (Elt Ideal)) (y : FVec Ideal S64x16384 .f32)
    (h : X (Proc.devRef .tc main_v30) = y) :
    after (ops1 (F := Ideal)) X (Proc.devRef .tc main_v32)
      = concatenate S64x16384 1 [⟨S64x1, extractStridedSlice S64x1 ![0, 16383] y slices_S64x16384_S64x1_0_16383⟩,
          ⟨S64x16383, extractStridedSlice S64x16383 ![0, 0] y slices_S64x16384_S64x16383_0_0⟩]
          concatenates_S64x1_S64x16383_S64x16384_d1 := by
  subst h
  rfl

theorem shift_none_fold (X : Valuation τ sig (Elt Ideal)) (y : FVec Ideal S64x16384 .f32)
    (h : X (Proc.devRef .tc main_v30) = y) :
    after (ops3 (F := Ideal)) X (Proc.devRef .tc main_v38)
      = concatenate S64x16384 1 [⟨S64x16384, extractStridedSlice S64x16384 ![0, 0] y slices_S64x16384_S64x16384_0_0⟩,
          ⟨S64x0, extractStridedSlice S64x0 ![0, 0] y slices_S64x16384_S64x0_0_0⟩]
          concatenates_S64x16384_S64x0_S64x16384_d1 := by
  subst h
  rfl

theorem shift_forward_fold (X : Valuation τ sig (Elt Ideal)) (y : FVec Ideal S64x16384 .f32)
    (h : X (Proc.devRef .tc main_v30) = y) :
    after (ops5 (F := Ideal)) X (Proc.devRef .tc main_v43)
      = concatenate S64x16384 1 [⟨S64x16383, extractStridedSlice S64x16383 ![0, 1] y slices_S64x16384_S64x16383_0_1⟩,
          ⟨S64x1, extractStridedSlice S64x1 ![0, 0] y slices_S64x16384_S64x1_0_0⟩]
          concatenates_S64x16383_S64x1_S64x16384_d1 := by
  subst h
  rfl

/-! ## The eight stretches -/

set_option maxHeartbeats 8000000 in
/-- The row dots, the norms, cosine similarity, the softmax and the interpolation: the gated weights and the first shift coefficient. -/
theorem similarity_to_gate (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)
    (h_arg0 : X (Proc.devRef .tc main_arg0) = x0)
    (h_arg1 : X (Proc.devRef .tc main_arg1) = x1)
    (h_arg2 : X (Proc.devRef .tc main_arg2) = x2)
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6)
    (h_arg7 : X (Proc.devRef .tc main_arg7) = x7)
    (h_arg8 : X (Proc.devRef .tc main_arg8) = x8) :
    after (ops0 (F := Ideal)) X (Proc.devRef .tc main_v30) = val_main_v30 (F := Ideal) x0 x1 x2 x3 x6
      ∧ after (ops0 (F := Ideal)) X (Proc.devRef .tc main_v31) = val_main_v31 (F := Ideal) x4
      ∧ after (ops0 (F := Ideal)) X (Proc.devRef .tc main_arg4) = x4
      ∧ after (ops0 (F := Ideal)) X (Proc.devRef .tc main_arg5) = x5
      ∧ after (ops0 (F := Ideal)) X (Proc.devRef .tc main_arg0) = x0
      ∧ after (ops0 (F := Ideal)) X (Proc.devRef .tc main_arg7) = x7
      ∧ after (ops0 (F := Ideal)) X (Proc.devRef .tc main_arg8) = x8 :=
  ⟨by
    simp only [ops0, TRef.unary, TRef.binary, TRef.nullary, TRef.toBuf, TRef.ofBuf, cast_eq]
    after_results_simp
    simp only [h_arg0, h_arg1, h_arg2, h_arg3, h_arg4, h_arg5, h_arg6, h_arg7, h_arg8]
    rfl,
   by
    simp only [ops0, TRef.unary, TRef.binary, TRef.nullary, TRef.toBuf, TRef.ofBuf, cast_eq]
    after_results_simp
    simp only [h_arg0, h_arg1, h_arg2, h_arg3, h_arg4, h_arg5, h_arg6, h_arg7, h_arg8]
    rfl,
   by
    simp only [ops0, TRef.unary, TRef.binary, TRef.nullary, TRef.toBuf, TRef.ofBuf, cast_eq]
    after_results_simp
    exact h_arg4,
   by
    simp only [ops0, TRef.unary, TRef.binary, TRef.nullary, TRef.toBuf, TRef.ofBuf, cast_eq]
    after_results_simp
    exact h_arg5,
   by
    simp only [ops0, TRef.unary, TRef.binary, TRef.nullary, TRef.toBuf, TRef.ofBuf, cast_eq]
    after_results_simp
    exact h_arg0,
   by
    simp only [ops0, TRef.unary, TRef.binary, TRef.nullary, TRef.toBuf, TRef.ofBuf, cast_eq]
    after_results_simp
    exact h_arg7,
   by
    simp only [ops0, TRef.unary, TRef.binary, TRef.nullary, TRef.toBuf, TRef.ofBuf, cast_eq]
    after_results_simp
    exact h_arg8⟩

/-- The gated weights rolled by one position towards the end. -/
theorem shift_back (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)
    (h_v30 : X (Proc.devRef .tc main_v30) = val_main_v30 (F := Ideal) x0 x1 x2 x3 x6)
    (h_v31 : X (Proc.devRef .tc main_v31) = val_main_v31 (F := Ideal) x4)
    (h_arg4 : X (Proc.devRef .tc main_arg4) = x4)
    (h_arg5 : X (Proc.devRef .tc main_arg5) = x5)
    (h_arg0 : X (Proc.devRef .tc main_arg0) = x0)
    (h_arg7 : X (Proc.devRef .tc main_arg7) = x7)
    (h_arg8 : X (Proc.devRef .tc main_arg8) = x8) :
    after (ops1 (F := Ideal)) X (Proc.devRef .tc main_v30) = val_main_v30 (F := Ideal) x0 x1 x2 x3 x6
      ∧ after (ops1 (F := Ideal)) X (Proc.devRef .tc main_v31) = val_main_v31 (F := Ideal) x4
      ∧ after (ops1 (F := Ideal)) X (Proc.devRef .tc main_v32) = val_main_v32 (F := Ideal) x0 x1 x2 x3 x6
      ∧ after (ops1 (F := Ideal)) X (Proc.devRef .tc main_arg4) = x4
      ∧ after (ops1 (F := Ideal)) X (Proc.devRef .tc main_arg5) = x5
      ∧ after (ops1 (F := Ideal)) X (Proc.devRef .tc main_arg0) = x0
      ∧ after (ops1 (F := Ideal)) X (Proc.devRef .tc main_arg7) = x7
      ∧ after (ops1 (F := Ideal)) X (Proc.devRef .tc main_arg8) = x8 :=
  ⟨by
    simp only [ops1, TRef.unary, TRef.binary, TRef.nullary, TRef.toBuf, TRef.ofBuf, cast_eq]
    after_results_simp
    exact h_v30,
   by
    simp only [ops1, TRef.unary, TRef.binary, TRef.nullary, TRef.toBuf, TRef.ofBuf, cast_eq]
    after_results_simp
    exact h_v31,
   (shift_back_fold X _ h_v30).trans rfl,
   by
    simp only [ops1, TRef.unary, TRef.binary, TRef.nullary, TRef.toBuf, TRef.ofBuf, cast_eq]
    after_results_simp
    exact h_arg4,
   by
    simp only [ops1, TRef.unary, TRef.binary, TRef.nullary, TRef.toBuf, TRef.ofBuf, cast_eq]
    after_results_simp
    exact h_arg5,
   by
    simp only [ops1, TRef.unary, TRef.binary, TRef.nullary, TRef.toBuf, TRef.ofBuf, cast_eq]
    after_results_simp
    exact h_arg0,
   by
    simp only [ops1, TRef.unary, TRef.binary, TRef.nullary, TRef.toBuf, TRef.ofBuf, cast_eq]
    after_results_simp
    exact h_arg7,
   by
    simp only [ops1, TRef.unary, TRef.binary, TRef.nullary, TRef.toBuf, TRef.ofBuf, cast_eq]
    after_results_simp
    exact h_arg8⟩

/-- The first shift term, and the second coefficient. -/
theorem first_term (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)
    (h_v30 : X (Proc.devRef .tc main_v30) = val_main_v30 (F := Ideal) x0 x1 x2 x3 x6)
    (h_v31 : X (Proc.devRef .tc main_v31) = val_main_v31 (F := Ideal) x4)
    (h_v32 : X (Proc.devRef .tc main_v32) = val_main_v32 (F := Ideal) x0 x1 x2 x3 x6)
    (h_arg4 : X (Proc.devRef .tc main_arg4) = x4)
    (h_arg5 : X (Proc.devRef .tc main_arg5) = x5)
    (h_arg0 : X (Proc.devRef .tc main_arg0) = x0)
    (h_arg7 : X (Proc.devRef .tc main_arg7) = x7)
    (h_arg8 : X (Proc.devRef .tc main_arg8) = x8) :
    after (ops2 (F := Ideal)) X (Proc.devRef .tc main_v30) = val_main_v30 (F := Ideal) x0 x1 x2 x3 x6
      ∧ after (ops2 (F := Ideal)) X (Proc.devRef .tc main_v36) = val_main_v36 (F := Ideal) x0 x1 x2 x3 x4 x6
      ∧ after (ops2 (F := Ideal)) X (Proc.devRef .tc main_v37) = val_main_v37 (F := Ideal) x4
      ∧ after (ops2 (F := Ideal)) X (Proc.devRef .tc main_arg4) = x4
      ∧ after (ops2 (F := Ideal)) X (Proc.devRef .tc main_arg5) = x5
      ∧ after (ops2 (F := Ideal)) X (Proc.devRef .tc main_arg0) = x0
      ∧ after (ops2 (F := Ideal)) X (Proc.devRef .tc main_arg7) = x7
      ∧ after (ops2 (F := Ideal)) X (Proc.devRef .tc main_arg8) = x8 :=
  ⟨by
    simp only [ops2, TRef.unary, TRef.binary, TRef.nullary, TRef.toBuf, TRef.ofBuf, cast_eq]
    after_results_simp
    exact h_v30,
   by
    simp only [ops2, TRef.unary, TRef.binary, TRef.nullary, TRef.toBuf, TRef.ofBuf, cast_eq]
    after_results_simp
    simp only [h_v30, h_v31, h_v32, h_arg4, h_arg5, h_arg0, h_arg7, h_arg8]
    rfl,
   by
    simp only [ops2, TRef.unary, TRef.binary, TRef.nullary, TRef.toBuf, TRef.ofBuf, cast_eq]
    after_results_simp
    simp only [h_v30, h_v31, h_v32, h_arg4, h_arg5, h_arg0, h_arg7, h_arg8]
    rfl,
   by
    simp only [ops2, TRef.unary, TRef.binary, TRef.nullary, TRef.toBuf, TRef.ofBuf, cast_eq]
    after_results_simp
    exact h_arg4,
   by
    simp only [ops2, TRef.unary, TRef.binary, TRef.nullary, TRef.toBuf, TRef.ofBuf, cast_eq]
    after_results_simp
    exact h_arg5,
   by
    simp only [ops2, TRef.unary, TRef.binary, TRef.nullary, TRef.toBuf, TRef.ofBuf, cast_eq]
    after_results_simp
    exact h_arg0,
   by
    simp only [ops2, TRef.unary, TRef.binary, TRef.nullary, TRef.toBuf, TRef.ofBuf, cast_eq]
    after_results_simp
    exact h_arg7,
   by
    simp only [ops2, TRef.unary, TRef.binary, TRef.nullary, TRef.toBuf, TRef.ofBuf, cast_eq]
    after_results_simp
    exact h_arg8⟩

/-- The gated weights not rolled. -/
theorem shift_none (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)
    (h_v30 : X (Proc.devRef .tc main_v30) = val_main_v30 (F := Ideal) x0 x1 x2 x3 x6)
    (h_v36 : X (Proc.devRef .tc main_v36) = val_main_v36 (F := Ideal) x0 x1 x2 x3 x4 x6)
    (h_v37 : X (Proc.devRef .tc main_v37) = val_main_v37 (F := Ideal) x4)
    (h_arg4 : X (Proc.devRef .tc main_arg4) = x4)
    (h_arg5 : X (Proc.devRef .tc main_arg5) = x5)
    (h_arg0 : X (Proc.devRef .tc main_arg0) = x0)
    (h_arg7 : X (Proc.devRef .tc main_arg7) = x7)
    (h_arg8 : X (Proc.devRef .tc main_arg8) = x8) :
    after (ops3 (F := Ideal)) X (Proc.devRef .tc main_v30) = val_main_v30 (F := Ideal) x0 x1 x2 x3 x6
      ∧ after (ops3 (F := Ideal)) X (Proc.devRef .tc main_v36) = val_main_v36 (F := Ideal) x0 x1 x2 x3 x4 x6
      ∧ after (ops3 (F := Ideal)) X (Proc.devRef .tc main_v37) = val_main_v37 (F := Ideal) x4
      ∧ after (ops3 (F := Ideal)) X (Proc.devRef .tc main_v38) = val_main_v38 (F := Ideal) x0 x1 x2 x3 x6
      ∧ after (ops3 (F := Ideal)) X (Proc.devRef .tc main_arg4) = x4
      ∧ after (ops3 (F := Ideal)) X (Proc.devRef .tc main_arg5) = x5
      ∧ after (ops3 (F := Ideal)) X (Proc.devRef .tc main_arg0) = x0
      ∧ after (ops3 (F := Ideal)) X (Proc.devRef .tc main_arg7) = x7
      ∧ after (ops3 (F := Ideal)) X (Proc.devRef .tc main_arg8) = x8 :=
  ⟨by
    simp only [ops3, TRef.unary, TRef.binary, TRef.nullary, TRef.toBuf, TRef.ofBuf, cast_eq]
    after_results_simp
    exact h_v30,
   by
    simp only [ops3, TRef.unary, TRef.binary, TRef.nullary, TRef.toBuf, TRef.ofBuf, cast_eq]
    after_results_simp
    exact h_v36,
   by
    simp only [ops3, TRef.unary, TRef.binary, TRef.nullary, TRef.toBuf, TRef.ofBuf, cast_eq]
    after_results_simp
    exact h_v37,
   (shift_none_fold X _ h_v30).trans rfl,
   by
    simp only [ops3, TRef.unary, TRef.binary, TRef.nullary, TRef.toBuf, TRef.ofBuf, cast_eq]
    after_results_simp
    exact h_arg4,
   by
    simp only [ops3, TRef.unary, TRef.binary, TRef.nullary, TRef.toBuf, TRef.ofBuf, cast_eq]
    after_results_simp
    exact h_arg5,
   by
    simp only [ops3, TRef.unary, TRef.binary, TRef.nullary, TRef.toBuf, TRef.ofBuf, cast_eq]
    after_results_simp
    exact h_arg0,
   by
    simp only [ops3, TRef.unary, TRef.binary, TRef.nullary, TRef.toBuf, TRef.ofBuf, cast_eq]
    after_results_simp
    exact h_arg7,
   by
    simp only [ops3, TRef.unary, TRef.binary, TRef.nullary, TRef.toBuf, TRef.ofBuf, cast_eq]
    after_results_simp
    exact h_arg8⟩

/-- The second shift term added, and the third coefficient. -/
theorem second_term (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)
    (h_v30 : X (Proc.devRef .tc main_v30) = val_main_v30 (F := Ideal) x0 x1 x2 x3 x6)
    (h_v36 : X (Proc.devRef .tc main_v36) = val_main_v36 (F := Ideal) x0 x1 x2 x3 x4 x6)
    (h_v37 : X (Proc.devRef .tc main_v37) = val_main_v37 (F := Ideal) x4)
    (h_v38 : X (Proc.devRef .tc main_v38) = val_main_v38 (F := Ideal) x0 x1 x2 x3 x6)
    (h_arg4 : X (Proc.devRef .tc main_arg4) = x4)
    (h_arg5 : X (Proc.devRef .tc main_arg5) = x5)
    (h_arg0 : X (Proc.devRef .tc main_arg0) = x0)
    (h_arg7 : X (Proc.devRef .tc main_arg7) = x7)
    (h_arg8 : X (Proc.devRef .tc main_arg8) = x8) :
    after (ops4 (F := Ideal)) X (Proc.devRef .tc main_v30) = val_main_v30 (F := Ideal) x0 x1 x2 x3 x6
      ∧ after (ops4 (F := Ideal)) X (Proc.devRef .tc main_v41) = val_main_v41 (F := Ideal) x0 x1 x2 x3 x4 x6
      ∧ after (ops4 (F := Ideal)) X (Proc.devRef .tc main_v42) = val_main_v42 (F := Ideal) x4
      ∧ after (ops4 (F := Ideal)) X (Proc.devRef .tc main_arg5) = x5
      ∧ after (ops4 (F := Ideal)) X (Proc.devRef .tc main_arg0) = x0
      ∧ after (ops4 (F := Ideal)) X (Proc.devRef .tc main_arg7) = x7
      ∧ after (ops4 (F := Ideal)) X (Proc.devRef .tc main_arg8) = x8 :=
  ⟨by
    simp only [ops4, TRef.unary, TRef.binary, TRef.nullary, TRef.toBuf, TRef.ofBuf, cast_eq]
    after_results_simp
    exact h_v30,
   by
    simp only [ops4, TRef.unary, TRef.binary, TRef.nullary, TRef.toBuf, TRef.ofBuf, cast_eq]
    after_results_simp
    simp only [h_v30, h_v36, h_v37, h_v38, h_arg4, h_arg5, h_arg0, h_arg7, h_arg8]
    rfl,
   by
    simp only [ops4, TRef.unary, TRef.binary, TRef.nullary, TRef.toBuf, TRef.ofBuf, cast_eq]
    after_results_simp
    simp only [h_v30, h_v36, h_v37, h_v38, h_arg4, h_arg5, h_arg0, h_arg7, h_arg8]
    rfl,
   by
    simp only [ops4, TRef.unary, TRef.binary, TRef.nullary, TRef.toBuf, TRef.ofBuf, cast_eq]
    after_results_simp
    exact h_arg5,
   by
    simp only [ops4, TRef.unary, TRef.binary, TRef.nullary, TRef.toBuf, TRef.ofBuf, cast_eq]
    after_results_simp
    exact h_arg0,
   by
    simp only [ops4, TRef.unary, TRef.binary, TRef.nullary, TRef.toBuf, TRef.ofBuf, cast_eq]
    after_results_simp
    exact h_arg7,
   by
    simp only [ops4, TRef.unary, TRef.binary, TRef.nullary, TRef.toBuf, TRef.ofBuf, cast_eq]
    after_results_simp
    exact h_arg8⟩

/-- The gated weights rolled by one position towards the start. -/
theorem shift_forward (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)
    (h_v30 : X (Proc.devRef .tc main_v30) = val_main_v30 (F := Ideal) x0 x1 x2 x3 x6)
    (h_v41 : X (Proc.devRef .tc main_v41) = val_main_v41 (F := Ideal) x0 x1 x2 x3 x4 x6)
    (h_v42 : X (Proc.devRef .tc main_v42) = val_main_v42 (F := Ideal) x4)
    (h_arg5 : X (Proc.devRef .tc main_arg5) = x5)
    (h_arg0 : X (Proc.devRef .tc main_arg0) = x0)
    (h_arg7 : X (Proc.devRef .tc main_arg7) = x7)
    (h_arg8 : X (Proc.devRef .tc main_arg8) = x8) :
    after (ops5 (F := Ideal)) X (Proc.devRef .tc main_v41) = val_main_v41 (F := Ideal) x0 x1 x2 x3 x4 x6
      ∧ after (ops5 (F := Ideal)) X (Proc.devRef .tc main_v42) = val_main_v42 (F := Ideal) x4
      ∧ after (ops5 (F := Ideal)) X (Proc.devRef .tc main_v43) = val_main_v43 (F := Ideal) x0 x1 x2 x3 x6
      ∧ after (ops5 (F := Ideal)) X (Proc.devRef .tc main_arg5) = x5
      ∧ after (ops5 (F := Ideal)) X (Proc.devRef .tc main_arg0) = x0
      ∧ after (ops5 (F := Ideal)) X (Proc.devRef .tc main_arg7) = x7
      ∧ after (ops5 (F := Ideal)) X (Proc.devRef .tc main_arg8) = x8 :=
  ⟨by
    simp only [ops5, TRef.unary, TRef.binary, TRef.nullary, TRef.toBuf, TRef.ofBuf, cast_eq]
    after_results_simp
    exact h_v41,
   by
    simp only [ops5, TRef.unary, TRef.binary, TRef.nullary, TRef.toBuf, TRef.ofBuf, cast_eq]
    after_results_simp
    exact h_v42,
   (shift_forward_fold X _ h_v30).trans rfl,
   by
    simp only [ops5, TRef.unary, TRef.binary, TRef.nullary, TRef.toBuf, TRef.ofBuf, cast_eq]
    after_results_simp
    exact h_arg5,
   by
    simp only [ops5, TRef.unary, TRef.binary, TRef.nullary, TRef.toBuf, TRef.ofBuf, cast_eq]
    after_results_simp
    exact h_arg0,
   by
    simp only [ops5, TRef.unary, TRef.binary, TRef.nullary, TRef.toBuf, TRef.ofBuf, cast_eq]
    after_results_simp
    exact h_arg7,
   by
    simp only [ops5, TRef.unary, TRef.binary, TRef.nullary, TRef.toBuf, TRef.ofBuf, cast_eq]
    after_results_simp
    exact h_arg8⟩

/-- The third term added, the power by the sharpening exponent, the normalisation: the weights. -/
theorem sharpen (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)
    (h_v41 : X (Proc.devRef .tc main_v41) = val_main_v41 (F := Ideal) x0 x1 x2 x3 x4 x6)
    (h_v42 : X (Proc.devRef .tc main_v42) = val_main_v42 (F := Ideal) x4)
    (h_v43 : X (Proc.devRef .tc main_v43) = val_main_v43 (F := Ideal) x0 x1 x2 x3 x6)
    (h_arg5 : X (Proc.devRef .tc main_arg5) = x5)
    (h_arg0 : X (Proc.devRef .tc main_arg0) = x0)
    (h_arg7 : X (Proc.devRef .tc main_arg7) = x7)
    (h_arg8 : X (Proc.devRef .tc main_arg8) = x8) :
    after (ops6 (F := Ideal)) X (Proc.devRef .tc main_v54) = val_main_v54 (F := Ideal) x0 x1 x2 x3 x4 x5 x6
      ∧ after (ops6 (F := Ideal)) X (Proc.devRef .tc main_arg0) = x0
      ∧ after (ops6 (F := Ideal)) X (Proc.devRef .tc main_arg7) = x7
      ∧ after (ops6 (F := Ideal)) X (Proc.devRef .tc main_arg8) = x8 :=
  ⟨by
    simp only [ops6, TRef.unary, TRef.binary, TRef.nullary, TRef.toBuf, TRef.ofBuf, cast_eq]
    after_results_simp
    simp only [h_v41, h_v42, h_v43, h_arg5, h_arg0, h_arg7, h_arg8]
    rfl,
   by
    simp only [ops6, TRef.unary, TRef.binary, TRef.nullary, TRef.toBuf, TRef.ofBuf, cast_eq]
    after_results_simp
    exact h_arg0,
   by
    simp only [ops6, TRef.unary, TRef.binary, TRef.nullary, TRef.toBuf, TRef.ofBuf, cast_eq]
    after_results_simp
    exact h_arg7,
   by
    simp only [ops6, TRef.unary, TRef.binary, TRef.nullary, TRef.toBuf, TRef.ofBuf, cast_eq]
    after_results_simp
    exact h_arg8⟩

/-- The read vectors (a batched product reshaped) and the new memory (the erase-and-add update). -/
theorem read_and_write (X : Valuation τ sig (Elt Ideal)) (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)
    (h_v54 : X (Proc.devRef .tc main_v54) = val_main_v54 (F := Ideal) x0 x1 x2 x3 x4 x5 x6)
    (h_arg0 : X (Proc.devRef .tc main_arg0) = x0)
    (h_arg7 : X (Proc.devRef .tc main_arg7) = x7)
    (h_arg8 : X (Proc.devRef .tc main_arg8) = x8) :
    after (ops7 (F := Ideal)) X (Proc.devRef .tc main_v57) = val_main_v57 (F := Ideal) x0 x1 x2 x3 x4 x5 x6
      ∧ after (ops7 (F := Ideal)) X (Proc.devRef .tc main_v71) = val_main_v71 (F := Ideal) x0 x1 x2 x3 x4 x5 x6 x7 x8
      ∧ after (ops7 (F := Ideal)) X (Proc.devRef .tc main_v54) = val_main_v54 (F := Ideal) x0 x1 x2 x3 x4 x5 x6 :=
  ⟨by
    simp only [ops7, TRef.unary, TRef.binary, TRef.nullary, TRef.toBuf, TRef.ofBuf, cast_eq]
    after_results_simp
    simp only [h_v54, h_arg0, h_arg7, h_arg8]
    rfl,
   by
    simp only [ops7, TRef.unary, TRef.binary, TRef.nullary, TRef.toBuf, TRef.ofBuf, cast_eq]
    after_results_simp
    simp only [h_v54, h_arg0, h_arg7, h_arg8]
    rfl,
   by
    simp only [ops7, TRef.unary, TRef.binary, TRef.nullary, TRef.toBuf, TRef.ofBuf, cast_eq]
    after_results_simp
    exact h_v54⟩

/-! ## The whole fold -/

/-- From any contents, the three result buffers after the 94 operations hold their stages of the argument buffers. -/
theorem results (V : Valuation τ sig (Elt Ideal)) :
    after (ops (F := Ideal)) V (Proc.devRef .tc main_v57)
        = val_main_v57 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after (ops (F := Ideal)) V (Proc.devRef .tc main_v71)
        = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
      ∧ after (ops (F := Ideal)) V (Proc.devRef .tc main_v54)
        = val_main_v54 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_split, after_append, after_append, after_append, after_append, after_append, after_append, after_append]
  obtain ⟨a30, a31, a4, a5, a0, a7, a8⟩ := similarity_to_gate V _ _ _ _ _ _ _ _ _ rfl rfl rfl rfl rfl rfl rfl rfl rfl
  obtain ⟨b30, b31, b32, b4, b5, b0, b7, b8⟩ := shift_back _ _ _ _ _ _ _ _ _ _ a30 a31 a4 a5 a0 a7 a8
  obtain ⟨c30, c36, c37, c4, c5, c0, c7, c8⟩ := first_term _ _ _ _ _ _ _ _ _ _ b30 b31 b32 b4 b5 b0 b7 b8
  obtain ⟨d30, d36, d37, d38, d4, d5, d0, d7, d8⟩ := shift_none _ _ _ _ _ _ _ _ _ _ c30 c36 c37 c4 c5 c0 c7 c8
  obtain ⟨e30, e41, e42, e5, e0, e7, e8⟩ := second_term _ _ _ _ _ _ _ _ _ _ d30 d36 d37 d38 d4 d5 d0 d7 d8
  obtain ⟨f41, f42, f43, f5, f0, f7, f8⟩ := shift_forward _ _ _ _ _ _ _ _ _ _ e30 e41 e42 e5 e0 e7 e8
  obtain ⟨g54, g0, g7, g8⟩ := sharpen _ _ _ _ _ _ _ _ _ _ f41 f42 f43 f5 f0 f7 f8
  exact read_and_write _ _ _ _ _ _ _ _ _ _ g54 g0 g7 g8

set_option maxHeartbeats 16000000 in
/-- No operation writes an argument's buffer. -/
theorem kept (V : Valuation τ sig (Elt Ideal)) :
    after (ops (F := Ideal)) V (Proc.devRef .tc main_arg0) = V (Proc.devRef .tc main_arg0)
    ∧ after (ops (F := Ideal)) V (Proc.devRef .tc main_arg1) = V (Proc.devRef .tc main_arg1)
    ∧ after (ops (F := Ideal)) V (Proc.devRef .tc main_arg2) = V (Proc.devRef .tc main_arg2)
    ∧ after (ops (F := Ideal)) V (Proc.devRef .tc main_arg3) = V (Proc.devRef .tc main_arg3)
    ∧ after (ops (F := Ideal)) V (Proc.devRef .tc main_arg4) = V (Proc.devRef .tc main_arg4)
    ∧ after (ops (F := Ideal)) V (Proc.devRef .tc main_arg5) = V (Proc.devRef .tc main_arg5)
    ∧ after (ops (F := Ideal)) V (Proc.devRef .tc main_arg6) = V (Proc.devRef .tc main_arg6)
    ∧ after (ops (F := Ideal)) V (Proc.devRef .tc main_arg7) = V (Proc.devRef .tc main_arg7)
    ∧ after (ops (F := Ideal)) V (Proc.devRef .tc main_arg8) = V (Proc.devRef .tc main_arg8) := by
  refine ⟨?_, ?_, ?_, ?_, ?_, ?_, ?_, ?_, ?_⟩ <;>
  · simp only [ops, TRef.unary, TRef.binary, TRef.nullary, TRef.toBuf, TRef.ofBuf, cast_eq]
    after_results_simp

/-! ## The run -/

variable (m : (ℓ : Loc nD τ sig) → Buf (Elt Ideal) ℓ) (ρ : Dev nD → PrngReg)

/-- Every weakly fair execution of @main terminates, nothing faulting, with the read vectors, the new memory and the
    weights at their stages of the launch arrays, and the arguments as launched. -/
theorem run : θ_run defs (onTc (τ := τ) (main (F := Ideal))) ⟨m, fun _ => 0, ρ⟩ fun r => ∀ c : Dev nD,
      r.2.mem ((c.tc : Thread nD τ).loc main_v57)
          = val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v71)
          = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v54)
          = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have R := results (launchContents m c)
    have K := kept (launchContents m c)
    ⟨(h c main_v57).trans R.1, (h c main_v71).trans R.2.1, (h c main_v54).trans R.2.2,
      (h c main_arg0).trans K.1, (h c main_arg1).trans K.2.1, (h c main_arg2).trans K.2.2.1, (h c main_arg3).trans K.2.2.2.1,
      (h c main_arg4).trans K.2.2.2.2.1, (h c main_arg5).trans K.2.2.2.2.2.1, (h c main_arg6).trans K.2.2.2.2.2.2.1,
      (h c main_arg7).trans K.2.2.2.2.2.2.2.1, (h c main_arg8).trans K.2.2.2.2.2.2.2.2⟩)
    (run_seq scopedRefs_eq scopedSems_eq defs main (fun _ => ops) main_eq (fun _ => ops_sub) m ρ)

end Cert.ReferenceIdeal.RefRun

end
-- ==== Proof.RefValue.lean ====
/-
  The reference's read vectors and new memory, read at an index from its stages.

  With W the reference's weights (stage 54, a function of the first seven arguments):
    * the read vectors are a batched product of W, given a unit middle axis, with the memory, reshaped from [64, 1, 64] to
      [64, 64]: at (b, r) the sum over the positions n of W(b,n) · M(b,n,r);
    * the new memory is M · ((1 − W·E) + W·D) entry by entry, W repeated along the last axis and the erase and add rows
      E, D along the middle one: at (b, n, r) it is M(b,n,r) · ((1 − W(b,n)·E(b,r)) + W(b,n)·D(b,r)).
-/
import proofs.«145907_j54546084660145_2_alg».proof.Proof.RefRead
import Idealize.ShloMosaic.Lib.ValueIdx

open scoped BigOperators

noncomputable section

namespace Cert.ReferenceIdeal.RefValue

open Cert.ReferenceIdeal Cert.ReferenceIdeal.Gen Cert.ReferenceIdeal.Stages
open Idealize.ShloMosaic Idealize.ShloMosaic.TcCoe Idealize.SL.Sem Idealize.ShloMosaic.ValueIdx

variable (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)

theorem read_at (b r : Fin 64) :
    val_main_v57 (F := Ideal) x0 x1 x2 x3 x4 x5 x6 (ix2 b r)
      = ∑ n : Fin 16384, val_main_v54 (F := Ideal) x0 x1 x2 x3 x4 x5 x6 (ix2 b n) * x0 (ix3 b n r) := by
  have hb : b.val < 64 := b.isLt
  have hr : r.val < 64 := r.isLt
  rw [val_main_v57_apply, val_main_v56_apply]
  refine Finset.sum_congr rfl fun k _ => ?_
  rw [val_main_v55_apply]
  have e1 : idx_main_v55 (lidx_main_v56 (idx_main_v57 (ix2 b r)) k) = ix2 b k :=
    funext fun a => Fin.ext (by
      match a with
      | ⟨0, _⟩ => show (b.val * 64 + r.val) / 64 = b.val; omega
      | ⟨1, _⟩ => rfl)
  have e2 : ridx_main_v56 (idx_main_v57 (ix2 b r)) k = ix3 b k r :=
    funext fun a => Fin.ext (by
      match a with
      | ⟨0, _⟩ => show (b.val * 64 + r.val) / 64 = b.val; omega
      | ⟨1, _⟩ => rfl
      | ⟨2, _⟩ => show (b.val * 64 + r.val) % 64 = r.val; omega)
  rw [e1, e2]

theorem update_at (b : Fin 64) (n : Fin 16384) (r : Fin 64) :
    val_main_v71 (F := Ideal) x0 x1 x2 x3 x4 x5 x6 x7 x8 (ix3 b n r)
      = x0 (ix3 b n r) * ((Ideal.ofBits .f32 0x3F800000#32
            - val_main_v54 (F := Ideal) x0 x1 x2 x3 x4 x5 x6 (ix2 b n) * x7 (ix2 b r))
          + val_main_v54 (F := Ideal) x0 x1 x2 x3 x4 x5 x6 (ix2 b n) * x8 (ix2 b r)) := by
  rw [val_main_v71_apply, val_main_v70_apply, val_main_v69_apply, val_main_v67_apply, val_main_v62_apply,
    val_main_v68_apply, val_main_cst_8_apply, val_main_v60_apply, val_main_v61_apply, val_main_v65_apply,
    val_main_v66_apply, val_main_v58_apply, val_main_v59_apply, val_main_v63_apply, val_main_v64_apply]
  have e1 : idx_main_v58 (idx_main_v60 (ix3 b n r)) = ix2 b n :=
    funext fun a => Fin.ext (by match a with | ⟨0, _⟩ => rfl | ⟨1, _⟩ => rfl)
  have e2 : idx_main_v59 (idx_main_v61 (ix3 b n r)) = ix2 b r :=
    funext fun a => Fin.ext (by match a with | ⟨0, _⟩ => rfl | ⟨1, _⟩ => rfl)
  have e3 : idx_main_v63 (idx_main_v65 (ix3 b n r)) = ix2 b n :=
    funext fun a => Fin.ext (by match a with | ⟨0, _⟩ => rfl | ⟨1, _⟩ => rfl)
  have e4 : idx_main_v64 (idx_main_v66 (ix3 b n r)) = ix2 b r :=
    funext fun a => Fin.ext (by match a with | ⟨0, _⟩ => rfl | ⟨1, _⟩ => rfl)
  rw [e1, e2, e3, e4]
  rfl

end Cert.ReferenceIdeal.RefValue

end
-- ==== Proof.lean ====
/-
  The memory-addressing step of a neural Turing machine: the kernel against its reference, on the extended reals.

  Both programs take a memory M [64, 16384, 64], a key K, a strength, a gate, three shift coefficients, a sharpening
  exponent, the previous weights, and erase and add rows E, D [64, 64]. They compute the weights W [64, 16384] — cosine
  similarity of every memory row with its batch's key, a softmax over the positions, interpolation with the previous
  weights, a circular convolution with the three coefficients, a power and a normalisation — and from W the read vectors
  read(b, r) = ∑ₙ W(b,n) · M(b,n,r) and the new memory new(b, n, r) = M(b,n,r) · ((1 − W(b,n)·E(b,r)) + W(b,n)·D(b,r)).

  The kernel runs two pipelined regions with the weights' host operations between them. The first region leaves, block by
  block, the row dots ∑ₖ M(b,n,k)·K(b,k) and the row squares ∑ₖ M(b,n,k)²; the reference forms the same sums on the host
  from zero, and 0 + x = x. The key's norm is taken in two layouts of the same 64 entries. From there on the two programs
  apply the same operations to equal arrays, so the kernel's weights are the reference's. The second region accumulates
  the read vectors over sixteen blocks of 1024 positions, from zero, where the reference contracts all 16384 positions in
  one batched product: addition on the extended reals is commutative and associative, so the grouping does not matter;
  and it writes the new memory entry by entry as the reference does. No law used needs the inputs finite.

  The three frames: the two kernels' are the generated frame certificates; the reference's is its run with the results
  dropped. The idealization rewrote no operation, so there is nothing to preserve.
-/
import proofs.«145907_j54546084660145_2_alg».proof.Defs
import proofs.«145907_j54546084660145_2_alg».proof.Proof.Gen.Kernel
import proofs.«145907_j54546084660145_2_alg».proof.Proof.Gen.Kernel.Skeleton
import proofs.«145907_j54546084660145_2_alg».proof.Proof.Gen.Kernel.Launch
import proofs.«145907_j54546084660145_2_alg».proof.Proof.Gen.Kernel.Points
import proofs.«145907_j54546084660145_2_alg».proof.Proof.Gen.Kernel.Frame
import proofs.«145907_j54546084660145_2_alg».proof.Proof.Gen.KernelIdeal
import proofs.«145907_j54546084660145_2_alg».proof.Proof.Gen.KernelIdeal.Skeleton
import proofs.«145907_j54546084660145_2_alg».proof.Proof.Gen.KernelIdeal.Launch
import proofs.«145907_j54546084660145_2_alg».proof.Proof.Gen.KernelIdeal.Points
import proofs.«145907_j54546084660145_2_alg».proof.Proof.Gen.KernelIdeal.Frame
import proofs.«145907_j54546084660145_2_alg».proof.Proof.Gen.ReferenceIdeal
import proofs.«145907_j54546084660145_2_alg».proof.Proof.Gen.Pre_finite_inputs
import proofs.«145907_j54546084660145_2_alg».proof.Proof.KernelValue
import proofs.«145907_j54546084660145_2_alg».proof.Proof.RefRun
import proofs.«145907_j54546084660145_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.ReferenceIdeal.Stages

/-! ## The reference's two array results are the kernel's closed forms at the same weights -/

section Bridge
open Cert.ReferenceIdeal

variable (x0 : FVec Ideal S64x16384x64 .f32) (x1 : FVec Ideal S64x64 .f32) (x2 x3 : FVec Ideal S64x1 .f32) (x4 : FVec Ideal S64x3 .f32) (x5 : FVec Ideal S64x1 .f32) (x6 : FVec Ideal S64x16384 .f32) (x7 x8 : FVec Ideal S64x64 .f32)

theorem read_bridge :
    val_main_v57 (F := Ideal) x0 x1 x2 x3 x4 x5 x6
      = Cert.KernelIdeal.Region1.readOf (val_main_v54 (F := Ideal) x0 x1 x2 x3 x4 x5 x6) x0 := by
  funext i
  obtain ⟨b, r, rfl⟩ : ∃ (b r : Fin 64), i = ix2 b r := ⟨i 0, i 1, eq_ix2 i⟩
  exact Cert.ReferenceIdeal.RefValue.read_at x0 x1 x2 x3 x4 x5 x6 b r

theorem update_bridge :
    val_main_v71 (F := Ideal) x0 x1 x2 x3 x4 x5 x6 x7 x8
      = Cert.KernelIdeal.Region1.updateOf x0 (val_main_v54 (F := Ideal) x0 x1 x2 x3 x4 x5 x6) x7 x8 := by
  funext i
  obtain ⟨b, n, r, rfl⟩ : ∃ (b : Fin 64) (n : Fin 16384) (r : Fin 64), i = ix3 b n r := ⟨i 0, i 1, i 2, eq_ix3 i⟩
  exact Cert.ReferenceIdeal.RefValue.update_at x0 x1 x2 x3 x4 x5 x6 x7 x8 b n r

end Bridge

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.RefRun.run m ρ)

theorem preserves : Cert.preserves_Kernel_KernelIdeal := trivial

/-- From memories agreeing on the arguments both idealized programs end with the same read vectors, new memory and
    weights: the kernel's closed forms over the reference's weights stage, which the reference's own stages equal. -/
theorem algebraic : Cert.algebraic_KernelIdeal_ReferenceIdeal := by
  intro m ρ m' ρ' _ hagree
  refine ⟨_, _, _, Cert.KernelIdeal.Value.run m ρ, ?_⟩
  refine (θ_run Cert.ReferenceIdeal.defs _ _).mono (fun _ h c => ?_) (Cert.ReferenceIdeal.RefRun.run m' ρ')
  obtain ⟨h57, h71, h54, hk⟩ := h c
  obtain ⟨g0, g1, g2, g3, g4, g5, g6, g7, g8⟩ := hagree c
  refine ⟨h57.trans ?_, h71.trans ?_, h54.trans ?_, hk⟩
  · rw [g0, g1, g2, g3, g4, g5, g6]
    exact read_bridge _ _ _ _ _ _ _
  · rw [g0, g1, g2, g3, g4, g5, g6, g7, g8]
    exact update_bridge _ _ _ _ _ _ _ _ _
  · rw [g0, g1, g2, g3, g4, g5, g6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
